-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1 : Shape := ⟨1, ![1]⟩

abbrev nBuf : Space → Nat
  | .hbm => 48
  | .vmem => 12
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x64, .f32⟩
  | .hbm, ⟨8, _⟩ => ⟨S8192x64, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S1x1, .f32⟩
  | .local _ .vmem, ⟨5, _⟩ => ⟨S1x1, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S1x1, .f32⟩
  | .local _ .vmem, ⟨11, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_cst_9 : Ref sig .tc := ⟨.hbm, 45, rfl⟩
abbrev main_v25 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v31 : BitVec 1 := Scalar.cmpi .eq arg0 c15_i32
  let arg1 : BitVec 32 := BitVec.ofNat 32 (i 1).val
  let c15_i32_15 : BitVec 32 := 15#32
  let v32 : BitVec 1 := Scalar.cmpi .eq arg1 c15_i32_15
  let v33 : BitVec 1 := Scalar.andi v31 v32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![16, 16], ![false, false]⟩

def k1_cond2 (i : grid1.Coords) : BitVec 1 :=
  let arg0 : BitVec 32 := BitVec.ofNat 32 (i 0).val
  let c15_i32 : BitVec 32 := 15#32
  let v31 : BitVec 1 := Scalar.cmpi .eq arg0 c15_i32
  let arg1 : BitVec 32 := BitVec.ofNat 32 (i 1).val
  let c15_i32_15 : BitVec 32 := 15#32
  let v32 : BitVec 1 := Scalar.cmpi .eq arg1 c15_i32_15
  let v33 : BitVec 1 := Scalar.andi v31 v32
  let v34 : BitVec 32 := Scalar.extui v33
  let c0_i32_16 : BitVec 32 := 0#32
  let v35 : BitVec 1 := Scalar.cmpi .ne v34 c0_i32_16
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  reducesTo_S8192_S_d0 : S8192.ReducesTo [0] S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  bitsLt_bf16_f32 : FTy.bits .bf16 < FTy.bits .f32
  transposes_S512x64_p1_0_S64x512 : S512x64.Transposes [1, 0] S64x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .f32 = 32 ∨ (Rect.block (s := S8192x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S8192x64.size a
  hwx1_1 : ∀ i : grid1.Coords, EltTy.bits .f32 = 32 ∨ (Rect.block (s := S8192x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_v2) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩

abbrev nBuf : Space → Nat
  | .hbm => 92
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x64, .f32⟩
  | .hbm, ⟨8, _⟩ => ⟨S8192x64, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x64, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x1, .f32⟩
  | .hbm, ⟨29, _⟩ => ⟨S8192x64, .f32⟩
  | .hbm, ⟨30, _⟩ => ⟨S8192x64, .f32⟩
  | .hbm, ⟨31, _⟩ => ⟨S64x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192x64, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1, .f32⟩
  | .hbm, ⟨60, _⟩ => ⟨S8192x64, .f32⟩
  | .hbm, ⟨61, _⟩ => ⟨S8192x64, .f32⟩
  | .hbm, ⟨62, _⟩ => ⟨S64x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_call2_v2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_v29 : Ref sig .tc := ⟨.hbm, 54, rfl⟩
abbrev main_call3_v0 : Ref sig .tc := ⟨.hbm, 55, rfl⟩
abbrev main_call3_cst : Ref sig .tc := ⟨.hbm, 56, rfl⟩
abbrev main_call3_v1 : Ref sig .tc := ⟨.hbm, 57, rfl⟩
abbrev main_call3_v2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_cst_11 : Ref sig .tc := ⟨.hbm, 67, rfl⟩
abbrev main_v37 : Ref sig .tc := ⟨.hbm, 68, rfl⟩
abbrev main_v38 : Ref sig .tc := ⟨.hbm, 69, rfl⟩
abbrev main_cst_12 : Ref sig .tc := ⟨.hbm, 70, rfl⟩
abbrev main_v39 : Ref sig .tc := ⟨.hbm, 71, rfl⟩
abbrev main_v40 : Ref sig .tc := ⟨.hbm, 72, rfl⟩
abbrev main_cst_13 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_14 : Ref sig .tc := ⟨.hbm, 77, rfl⟩
abbrev main_v44 : Ref sig .tc := ⟨.hbm, 78, rfl⟩
abbrev main_cst_15 : Ref sig .tc := ⟨.hbm, 79, rfl⟩
abbrev main_v45 : Ref sig .tc := ⟨.hbm, 80, rfl⟩
abbrev main_cst_16 : Ref sig .tc := ⟨.hbm, 81, rfl⟩
abbrev main_v46 : Ref sig .tc := ⟨.hbm, 82, rfl⟩
abbrev main_cst_17 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_18 : Ref sig .tc := ⟨.hbm, 87, rfl⟩
abbrev main_v50 : Ref sig .tc := ⟨.hbm, 88, rfl⟩
abbrev main_cst_19 : Ref sig .tc := ⟨.hbm, 89, rfl⟩
abbrev main_v51 : Ref sig .tc := ⟨.hbm, 90, rfl⟩
abbrev main_v52 : Ref sig .tc := ⟨.hbm, 91, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  reducesTo_S8192_S_d0 : S8192.ReducesTo [0] S_
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.LibWholeStore.lean ====
/-
  Reading a buffer back after a store through the rectangle that is the whole shape.

  A store whose rectangle starts at the origin and has the shape's own extents overwrites every element, so what the
  buffer reads afterwards is the stored value: whatever it held before, and whatever earlier stores lie under it.
-/
import Idealize.ShloMosaic.Lib.Pipeline.FrameBody
import Idealize.ShloMosaic.Lib.Pipeline.Value

noncomputable section

namespace Cert.LibWholeStore

open Idealize.ShloMosaic

variable {F : FTy → Type} [FloatOps F]

/-- The origin of a rank-2 shape, as the all-zero offset. -/
theorem zero2 : (![0, 0] : Fin 2 → Nat) = fun _ => 0 := funext fun a => by
  match a with
  | ⟨0, _⟩ => rfl
  | ⟨1, _⟩ => rfl

/-- A buffer read after ONE store through the rectangle that is the whole shape holds the stored value, whatever it held. -/
theorem read_store_whole {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- The same when earlier stores lie under it. -/
theorem read_store_whole₂ {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

end Cert.LibWholeStore

end
-- ==== Proof.KBody0.lean ====
/-
  The kernel body at one grid point, as three runs (first point, a middle point, last point), at any float instance.
-/
import proofs.«112264_j73735998537818_1_alg».proof.Proof.Gen.Kernel.Launch
import proofs.«112264_j73735998537818_1_alg».proof.Proof.Gen.Kernel.Skeleton
import proofs.«112264_j73735998537818_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«112264_j73735998537818_1_alg».proof.Proof.LibWholeStore
set_option maxRecDepth 16384

noncomputable section

namespace Cert.Kernel.Body0

open Cert.Kernel Cert.Kernel.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid point -/

/-- "This is the first grid point": the first `scf.if`'s condition, the scalar chain over the coordinates. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": the second `scf.if`'s condition. -/
abbrev isLast (i : grid0.Coords) : Prop := k0_cond2 i = 1#1

/-! ## The body, case by case

At every point the body adds the tile's sum to the one-word scratch accumulator (`k0_pay2` of the two input blocks and
the accumulator's contents). At the first point it zeroes the accumulator first (`k0_pay1`); at the last it copies the
accumulator into the output's buffer. -/

/-- A middle point: the accumulator goes from `a` to `k0_pay2 x y a`; nothing else changes. -/
theorem run_mid (c : Dev nD) (i : grid0.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : ¬ isFirst i) (hc2 : ¬ isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare o ∗ owns (c : Thread nD τ) arg5 fullShare (k0_pay2 x y a)) -∗ K ⟨⟩))
      ⊢ wp frame (wpE (defs₀ (F := F)) Variants.none c none) E (cc0__uniformity_kernel i arg2 harg2 arg3 harg3 arg4 harg4 arg5 harg5) K := by
  simp only [cc0__uniformity_kernel_eq_skeleton]; unfold cc0__uniformity_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_run_names
  rw [read_store_whole _ _ zero2]
  simp only [View.readAt_eq_ld, harg2.read_unread, harg3.read_unread, harg5.read_unread, View.ld_unit_zero (S := S512x64) zero2, View.ld_unit_zero (S := S1x1) zero2]

/-- The first point: the accumulator, whatever it held, ends at `k0_pay2 x y k0_pay1`. -/
theorem run_first (c : Dev nD) (i : grid0.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : isFirst i) (hc2 : ¬ isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare o ∗ owns (c : Thread nD τ) arg5 fullShare (k0_pay2 x y (k0_pay1 (F := F)))) -∗ K ⟨⟩))
      ⊢ wp frame (wpE (defs₀ (F := F)) Variants.none c none) E (cc0__uniformity_kernel i arg2 harg2 arg3 harg3 arg4 harg4 arg5 harg5) K := by
  simp only [cc0__uniformity_kernel_eq_skeleton]; unfold cc0__uniformity_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_run_names
  rw [read_store_whole₂ _ _ zero2]
  simp only [View.readAt_eq_ld, harg2.read_unread, harg3.read_unread, View.ld_unit_zero (S := S512x64) zero2, View.readCov_unit_zero (S := S1x1) arg5.view zero2]

/-- The last point: the accumulator goes from `a` to `k0_pay2 x y a`, and the output's buffer ends holding the same. -/
theorem run_last (c : Dev nD) (i : grid0.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : ¬ isFirst i) (hc2 : isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare (k0_pay2 x y a) ∗ owns (c : Thread nD τ) arg5 fullShare (k0_pay2 x y a)) -∗ K ⟨⟩))
      ⊢ wp frame (wpE (defs₀ (F := F)) Variants.none c none) E (cc0__uniformity_kernel i arg2 harg2 arg3 harg3 arg4 harg4 arg5 harg5) K := by
  simp only [cc0__uniformity_kernel_eq_skeleton]; unfold cc0__uniformity_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_run_names
    rw [read_store_whole _ _ zero2]
    simp only [View.readAt_eq_ld, harg2.read_unread, harg3.read_unread, harg5.read_unread, View.ld_unit_zero (S := S512x64) zero2, View.ld_unit_zero (S := S1x1) zero2, View.readCov_unit_zero (S := S1x1) arg5.view zero2]
  iexists _; isplitr; swap; · iexact H5
  ipureintro
  sl_unfold_run_names
  rw [read_store_whole _ _ zero2]
  simp only [View.readAt_eq_ld, harg2.read_unread, harg3.read_unread, harg5.read_unread, View.ld_unit_zero (S := S512x64) zero2, View.ld_unit_zero (S := S1x1) zero2]

end Cert.Kernel.Body0

end
-- ==== Proof.KRegion0.lean ====
/-
  Region 0 (the first pallas_call) as a pipeline, at any float instance and any contents `V` of the buffers at its entry:
  the two input windows' blocks, what the one-word accumulator holds after each grid point, the proof data, and the
  body's obligation at every point.

  The grid has 256 points. At point `t` window 0 holds rows `512·(t / 16) …` and window 1 rows `512·(t % 16) …` of the
  SAME array; the body adds the tile's sum to the accumulator (zeroed at the first point) and at the last point copies
  it to the output's one-word buffer, which is then written back.
-/
import proofs.«112264_j73735998537818_1_alg».proof.Proof.KBody0

set_option maxRecDepth 16384

noncomputable section

namespace Cert.Kernel.Region0

open Cert.Kernel Cert.Kernel.Gen Cert.Kernel.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule: which points are first and last, where the output is idle -/

theorem N_eq : cfg0.N = 256 := N_0
theorem N_pos : 0 < cfg0.N := by rw [N_eq]; decide

/-- The first branch is taken at point 0 only; -/
theorem first_iff : ∀ t : Fin cfg0.N, isFirst (grid0.coords t) ↔ t.val = 0 :=
  (by decide +kernel : ∀ t : Fin grid0.N, isFirst (grid0.coords t) ↔ t.val = 0)
/-- the second at point 255 only. -/
theorem last_iff : ∀ t : Fin cfg0.N, isLast (grid0.coords t) ↔ t.val = 255 :=
  (by decide +kernel : ∀ t : Fin grid0.N, isLast (grid0.coords t) ↔ t.val = 255)
/-- The output window is idle (nothing stored into its buffer) and not written back at every point but the last, -/
theorem idle_out : ∀ t : Fin cfg0.N, t.val ≠ 255 → cfg0.idle 2 (grid0.coords t) = true :=
  (by decide +kernel : ∀ t : Fin grid0.N, t.val ≠ 255 → cfg0.idle 2 (grid0.coords t) = true)
theorem noflush_out : ∀ t : Fin cfg0.N, t.val ≠ 255 → (cfg0.win 2).flush t = false :=
  (by decide +kernel : ∀ t : Fin grid0.N, t.val ≠ 255 → win0_2.flush t = false)
/-- and live at the last. -/
theorem live_out : ∀ t : Fin cfg0.N, t.val = 255 → cfg0.idle 2 (grid0.coords t) = false :=
  (by decide +kernel : ∀ t : Fin grid0.N, t.val = 255 → cfg0.idle 2 (grid0.coords t) = false)

/-! ## The input windows' blocks and the accumulator -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Position `n` as a grid point (positions past the grid wrap; only `n < 256` is ever read). -/
def pt (n : ℕ) : Fin cfg0.N := ⟨n % cfg0.N, Nat.mod_lt _ N_pos⟩
theorem pt_val (t : Fin cfg0.N) : pt t.val = t := Fin.ext (Nat.mod_eq_of_lt t.isLt)

/-- The two blocks the body loads at position `n`. -/
def xb (c : Dev nD) (n : ℕ) : Vec F S512x64 .f32 := iblk V c 0 (pt n)
def yb (c : Dev nD) (n : ℕ) : Vec F S512x64 .f32 := iblk V c 1 (pt n)
theorem xb_val (c : Dev nD) (t : Fin cfg0.N) : xb V c t.val = iblk V c 0 t := by unfold xb; rw [pt_val]
theorem yb_val (c : Dev nD) (t : Fin cfg0.N) : yb V c t.val = iblk V c 1 t := by unfold yb; rw [pt_val]

/-- What the accumulator holds after position `n`: the body's stored value of the two blocks there and of what the
    accumulator held — zeros at the first position, else what the position before left. -/
def acc (c : Dev nD) : ℕ → Vec F S1x1 .f32
  | 0 => k0_pay2 (xb V c 0) (yb V c 0) (k0_pay1 (F := F))
  | n + 1 => k0_pay2 (xb V c (n + 1)) (yb V c (n + 1)) (acc c n)

/-! ## The invariant between points and the proof data -/

/-- The accumulator's buffer. -/
abbrev scM : Memref sig .tc .vmem S1x1 .f32 := Memref.whole cc0_scratch0

/-- What the region holds of the scoped buffers it does not stage, once the accumulator is taken out. -/
abbrev restOf (c : Dev nD) : sProp 𝕄 :=
  iprop(iprop(∃ d, owns (c : Thread nD τ) scM fullShare d) -∗ Pipeline.scopedRest (Ix := Unit) (Name := ℕ) (U := UR sig nD τ) (Lvl := ℕ) (Val := Elt F) spec0 c)

/-- Before position `n`: the accumulator at anything before the first point, afterwards at what the point before
    left; beside it the other scoped buffers, untouched. -/
def PhiS (c : Dev nD) : ℕ → sProp 𝕄
  | 0 => iprop(iprop(∃ d, owns (c : Thread nD τ) scM fullShare d) ∗ restOf c)
  | n + 1 => iprop(owns (c : Thread nD τ) scM fullShare (acc V c n) ∗ restOf c)

/-- The proof data on core `c`: the arrays as found; each input's buffer left at its block, the output's at the
    accumulator's value; the two input windows hold the two halves of the one array's share; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val
  Φ t := PhiS V c t.val
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = acc V c t.val := by dsimp only [dat]

/-- Each input's current buffer holds its block at every point, fetched there or not: unfetched, the block index has
    not moved and the body left the block in place. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem PhiS_zero (c : Dev nD) : PhiS V c 0 = iprop(iprop(∃ d, owns (c : Thread nD τ) scM fullShare d) ∗ restOf c) := rfl
theorem PhiS_succ (c : Dev nD) (n : ℕ) : PhiS V c (n + 1) = iprop(owns (c : Thread nD τ) scM fullShare (acc V c n) ∗ restOf c) := rfl

theorem Phi_castSucc (c : Dev nD) (t : Fin cfg0.N) : (dat V c).Φ t.castSucc = PhiS V c t.val := by
  dsimp only [dat]; simp only [Fin.coe_castSucc]
theorem Phi_succ (c : Dev nD) (t : Fin cfg0.N) : (dat V c).Φ t.succ = PhiS V c (t.val + 1) := rfl

theorem leaves_0 (c : Dev nD) (t : Fin cfg0.N) :
    (dat V c).leavesExact 0 t = owns (c : Thread nD τ) (st0_0 t) fullShare (iblk V c 0 t) := by
  unfold Dat.leavesExact; rw [show cfg0.idle 0 (cfg0.grid.coords t) = false from rfl, after_0]
theorem leaves_1 (c : Dev nD) (t : Fin cfg0.N) :
    (dat V c).leavesExact 1 t = owns (c : Thread nD τ) (st0_1 t) fullShare (iblk V c 1 t) := by
  unfold Dat.leavesExact; rw [show cfg0.idle 1 (cfg0.grid.coords t) = false from rfl, after_1]

set_option maxHeartbeats 1600000 in
/-- The body at any point, by the point's case. The accumulator comes out of the invariant at what the point before left
    (at anything at the first point) and goes back at this point's value; the other scoped buffers and the core's dues pass
    through; each input's buffer holds its block before and after; the output's buffer is handed back untouched except at
    the last point, where it ends holding the accumulator's value. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl, Phi_castSucc, Phi_succ, leaves_0, leaves_1]
  have hN : t.val < 256 := lt_of_lt_of_eq t.isLt N_eq
  by_cases h0 : t.val = 0
  · -- the first point
    have hl : t.val ≠ 255 := by omega
    rw [Dat.leavesExact_idle (dat V c) 2 t (idle_out t hl) (noflush_out t hl), PhiS_succ V c t.val]
    rw [show acc V c t.val = k0_pay2 (iblk V c 0 t) (iblk V c 1 t) (k0_pay1 (F := F)) from by
      rw [← xb_val V c t, ← yb_val V c t, h0]; rfl]
    rw [show PhiS V c t.val = PhiS V c 0 from by rw [h0], PhiS_zero]
    iintro ⟨⟨⟨%a, HS⟩, Hw⟩, Ho, ⟨%d0, H0⟩, ⟨%d1, H1⟩, ⟨%d2, H2⟩⟩
    iapply (run_first c (grid0.coords t) _ _ _ _ _ _ _ _ ((first_iff t).mpr h0) (fun h => hl ((last_iff t).mp h)) (iblk V c 0 t) (iblk V c 1 t) a _ Set.univ _)
    isplitl [H0]; · iexact H0
    isplitl [H1]; · iexact H1
    isplitl [H2]; · iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexists _; iexact H2
  · obtain ⟨n, hn⟩ : ∃ n, t.val = n + 1 := ⟨t.val - 1, by omega⟩
    have hacc : acc V c t.val = k0_pay2 (iblk V c 0 t) (iblk V c 1 t) (acc V c n) := by
      rw [← xb_val V c t, ← yb_val V c t, hn]; rfl
    by_cases hl : t.val = 255
    · -- the last point
      rw [show (dat V c).leavesExact 2 t = owns (c : Thread nD τ) (st0_2 t) fullShare ((dat V c).after 2 t) from by
        unfold Dat.leavesExact; rw [live_out t hl], after_2, PhiS_succ V c t.val, hacc]
      rw [show PhiS V c t.val = PhiS V c (n + 1) from by rw [hn], PhiS_succ]
      iintro ⟨⟨HS, Hw⟩, Ho, ⟨%d0, H0⟩, ⟨%d1, H1⟩, ⟨%d2, H2⟩⟩
      iapply (run_last c (grid0.coords t) _ _ _ _ _ _ _ _ (fun h => h0 ((first_iff t).mp h)) ((last_iff t).mpr hl) (iblk V c 0 t) (iblk V c 1 t) (acc V c n) _ Set.univ _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexact H2
    · -- a middle point
      rw [Dat.leavesExact_idle (dat V c) 2 t (idle_out t hl) (noflush_out t hl), PhiS_succ V c t.val, hacc]
      rw [show PhiS V c t.val = PhiS V c (n + 1) from by rw [hn], PhiS_succ]
      iintro ⟨⟨HS, Hw⟩, Ho, ⟨%d0, H0⟩, ⟨%d1, H1⟩, ⟨%d2, H2⟩⟩
      iapply (run_mid c (grid0.coords t) _ _ _ _ _ _ _ _ (fun h => h0 ((first_iff t).mp h)) (fun h => hl ((last_iff t).mp h)) (iblk V c 0 t) (iblk V c 1 t) (acc V c n) _ Set.univ _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Region0

end
-- ==== Proof.KEdge0.lean ====
/-
  Region 0's two ends. Its three windows sit on TWO arrays: both input windows read `main_v2`, the output window writes
  `main_v11`. On entry the core's unscoped buffers give each input window one half of `main_v2`'s share and the output window
  all of `main_v11`; on exit the halves, which still hold what they held, are joined again and `main_v11` holds what the last
  point wrote back.
-/
import proofs.«112264_j73735998537818_1_alg».proof.Proof.KRegion0
import Idealize.ShloMosaic.Lib.Pipeline.Regions
import Idealize.ShloMosaic.Lib.Pipeline.RegionsLoop

set_option maxRecDepth 16384

noncomputable section

namespace Cert.Kernel.Region0

open Cert.Kernel Cert.Kernel.Gen Cert.Kernel.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's array is never written: after any number of points it holds what it held. -/
theorem arr_in0 (c : Dev nD) (n : ℕ) : (dat V c).arrAt 0 n = V c main_v2 := ((dat V c).arrAt_in 0 rfl n).trans (A_eq V c 0)
theorem arr_in1 (c : Dev nD) (n : ℕ) : (dat V c).arrAt 1 n = V c main_v2 := ((dat V c).arrAt_in 1 rfl n).trans (A_eq V c 1)
theorem arr_out_entry (c : Dev nD) : (dat V c).arrAt 2 0 = V c main_v11 := A_eq V c 2

theorem share_0 (c : Dev nD) : (dat V c).share 0 = fullShare.left := if_neg (by decide)
theorem share_1 (c : Dev nD) : (dat V c).share 1 = fullShare.right := if_neg (by decide)
theorem share_2 (c : Dev nD) : (dat V c).share 2 = fullShare := if_pos (by decide)

set_option backward.isDefEq.respectTransparency.types false in
/-- ENTRY: the unscoped buffers at `V` are the region's arrays at their entry contents — `main_v2` dealt in halves to the
    two input windows — and the unscoped buffers that are no array of the region. -/
theorem entry_split (c : Dev nD) :
    (unscopedBufs c (V c) : sProp 𝕄) ⊢ iprop((dat V c).arrays ((dat V c).arrAt · 0) ∗ Pipeline.unscopedRest spec0 c (V c)) := by
  rw [Pipeline.unscopedBufs_split₀ cfgs (0 : Fin 2) winFacts₀0.arr_unscoped c (V c)]
  refine sep_mono ?_ .rfl
  unfold Pipeline.arrBufs Dat.arrays
  rw [bigSep_eq_bigSepL_of_eq [main_v2, main_v11] (by decide) (by decide), bigSep_W0]
  rw [share_0, share_1, share_2, (arr_whole0 0).set_eq_univ, (arr_whole0 2).set_eq_univ]
  dsimp only
  rw [arr_in0, arr_in1, arr_out_entry]
  show iprop((((c : Thread nD τ).loc main_v2) ↦{fullShare} V c main_v2) ∗ (((c : Thread nD τ).loc main_v11) ↦{fullShare} V c main_v11)) ⊢ _
  iintro ⟨H2, H11⟩
  have hs : ((((c : Thread nD τ).loc main_v2) ↦{fullShare} V c main_v2) : sProp 𝕄)
      ⊢ iprop((((c : Thread nD τ).loc main_v2) ↦{fullShare.left} V c main_v2) ∗ (((c : Thread nD τ).loc main_v2) ↦{fullShare.right} V c main_v2)) :=
    (pointsTo_share (PosShare.mem_left_op_right fullShare)).1
  ihave Hs := hs $$ H2
  icases Hs with ⟨Hl, Hr⟩
  isplitl [Hl]; · iexact Hl
  isplitl [Hr]; · iexact Hr
  iexact H11

set_option backward.isDefEq.respectTransparency.types false in
/-- EXIT: the region's arrays at their final contents — the two halves of `main_v2` as found, `main_v11` at what was written
    back — and the unscoped rest at `V` are the core's unscoped buffers at any `V'` that has `main_v11` at that and agrees
    with `V` elsewhere. -/
theorem exit_join (c : Dev nD) (V' : (b : Ref sig .tc) → Buf (Elt F) ((c : Thread nD τ).loc b))
    (hout : V' main_v11 = (dat V c).arrAt 2 cfg0.N) (hrest : ∀ b, b ≠ main_v11 → V' b = V c b) :
    iprop((dat V c).arrays ((dat V c).arrAt · cfg0.N) ∗ Pipeline.unscopedRest spec0 c (V c)) ⊢ (unscopedBufs c V' : sProp 𝕄) := by
  rw [Pipeline.unscopedBufs_split₀ cfgs (0 : Fin 2) winFacts₀0.arr_unscoped c V']
  refine sep_mono ?_ (Entails.of_eq ?_)
  · unfold Pipeline.arrBufs Dat.arrays
    rw [bigSep_eq_bigSepL_of_eq [main_v2, main_v11] (by decide) (by decide), bigSep_W0]
    rw [share_0, share_1, share_2, (arr_whole0 0).set_eq_univ, (arr_whole0 2).set_eq_univ]
    dsimp only
    rw [arr_in0, arr_in1]
    show _ ⊢ iprop((((c : Thread nD τ).loc main_v2) ↦{fullShare} V' main_v2) ∗ (((c : Thread nD τ).loc main_v11) ↦{fullShare} V' main_v11))
    rw [hrest main_v2 (by decide), hout]
    iintro ⟨Hl, Hr, H11⟩
    isplitl [Hl Hr]
    · have hj : iprop((((c : Thread nD τ).loc main_v2) ↦{fullShare.left} V c main_v2) ∗ (((c : Thread nD τ).loc main_v2) ↦{fullShare.right} V c main_v2))
          ⊢ ((((c : Thread nD τ).loc main_v2) ↦{fullShare} V c main_v2) : sProp 𝕄) :=
        (pointsTo_share (PosShare.mem_left_op_right fullShare)).2
      iapply hj
      isplitl [Hl]; · iexact Hl
      iexact Hr
    iexact H11
  · unfold Pipeline.unscopedRest
    exact bigSep_congr fun b hb => by
      rw [hrest b (fun e => (Finset.mem_sdiff.mp hb).2 (e ▸ Finset.mem_image.mpr ⟨2, Finset.mem_univ _, rfl⟩))]

/-! ## The accumulator's buffer in and out of the scoped rest -/

/-- The scoped buffers the region does not stage are the accumulator's, at anything, and the others. -/
theorem rest_split (c : Dev nD) :
    (Pipeline.scopedRest (Ix := Unit) (Name := ℕ) (U := UR sig nD τ) (Lvl := ℕ) (Val := Elt F) spec0 c : sProp 𝕄)
      ⊢ iprop(iprop(∃ d, owns (c : Thread nD τ) scM fullShare d) ∗ restOf c) := by
  have key : ∀ (A B : sProp 𝕄), iprop(A ∗ B) ⊢ iprop(A ∗ (A -∗ iprop(A ∗ B))) := fun A B => by
    iintro ⟨HA, HB⟩
    isplitl [HA]; · iexact HA
    iintro HA
    isplitl [HA]; · iexact HA
    iexact HB
  show _ ⊢ iprop(iprop(∃ d, owns (c : Thread nD τ) scM fullShare d)
    ∗ (iprop(∃ d, owns (c : Thread nD τ) scM fullShare d) -∗ Pipeline.scopedRest (Ix := Unit) (Name := ℕ) (U := UR sig nD τ) (Lvl := ℕ) (Val := Elt F) spec0 c))
  rw [scopedRest0_eq]
  simp only [scM, owns_whole]
  exact key _ _

/-- And back. -/
theorem rest_join (c : Dev nD) (a : Vec F S1x1 .f32) :
    iprop(owns (c : Thread nD τ) scM fullShare a ∗ restOf c)
      ⊢ (Pipeline.scopedRest (Ix := Unit) (Name := ℕ) (U := UR sig nD τ) (Lvl := ℕ) (Val := Elt F) spec0 c : sProp 𝕄) := by
  iintro ⟨H0, Hw⟩
  iapply Hw
  iexists _; iexact H0

end Cert.Kernel.Region0

end
-- ==== Proof.KBody1.lean ====
/-
  The kernel body at one grid point, as three runs (first point, a middle point, last point), at any float instance.
-/
import proofs.«112264_j73735998537818_1_alg».proof.Proof.Gen.Kernel.Launch
import proofs.«112264_j73735998537818_1_alg».proof.Proof.Gen.Kernel.Skeleton
import proofs.«112264_j73735998537818_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«112264_j73735998537818_1_alg».proof.Proof.LibWholeStore
set_option maxRecDepth 16384

noncomputable section

namespace Cert.Kernel.Body1

open Cert.Kernel Cert.Kernel.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid point -/

/-- "This is the first grid point": the first `scf.if`'s condition, the scalar chain over the coordinates. -/
abbrev isFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": the second `scf.if`'s condition. -/
abbrev isLast (i : grid1.Coords) : Prop := k1_cond2 i = 1#1

/-! ## The body, case by case

At every point the body adds the tile's sum to the one-word scratch accumulator (`k1_pay2` of the two input blocks and
the accumulator's contents). At the first point it zeroes the accumulator first (`k1_pay1`); at the last it copies the
accumulator into the output's buffer. -/

/-- A middle point: the accumulator goes from `a` to `k1_pay2 x y a`; nothing else changes. -/
theorem run_mid (c : Dev nD) (i : grid1.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : ¬ isFirst i) (hc2 : ¬ isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare o ∗ owns (c : Thread nD τ) arg5 fullShare (k1_pay2 x y a)) -∗ K ⟨⟩))
      ⊢ wp frame (wpE (defs₀ (F := F)) Variants.none c none) E (cc1__uniformity_kernel i arg2 harg2 arg3 harg3 arg4 harg4 arg5 harg5) K := by
  simp only [cc1__uniformity_kernel_eq_skeleton]; unfold cc1__uniformity_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_run_names
  rw [read_store_whole _ _ zero2]
  simp only [View.readAt_eq_ld, harg2.read_unread, harg3.read_unread, harg5.read_unread, View.ld_unit_zero (S := S512x64) zero2, View.ld_unit_zero (S := S1x1) zero2]

/-- The first point: the accumulator, whatever it held, ends at `k1_pay2 x y k1_pay1`. -/
theorem run_first (c : Dev nD) (i : grid1.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : isFirst i) (hc2 : ¬ isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare o ∗ owns (c : Thread nD τ) arg5 fullShare (k1_pay2 x y (k1_pay1 (F := F)))) -∗ K ⟨⟩))
      ⊢ wp frame (wpE (defs₀ (F := F)) Variants.none c none) E (cc1__uniformity_kernel i arg2 harg2 arg3 harg3 arg4 harg4 arg5 harg5) K := by
  simp only [cc1__uniformity_kernel_eq_skeleton]; unfold cc1__uniformity_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_run_names
  rw [read_store_whole₂ _ _ zero2]
  simp only [View.readAt_eq_ld, harg2.read_unread, harg3.read_unread, View.ld_unit_zero (S := S512x64) zero2, View.readCov_unit_zero (S := S1x1) arg5.view zero2]

/-- The last point: the accumulator goes from `a` to `k1_pay2 x y a`, and the output's buffer ends holding the same. -/
theorem run_last (c : Dev nD) (i : grid1.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : ¬ isFirst i) (hc2 : isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare (k1_pay2 x y a) ∗ owns (c : Thread nD τ) arg5 fullShare (k1_pay2 x y a)) -∗ K ⟨⟩))
      ⊢ wp frame (wpE (defs₀ (F := F)) Variants.none c none) E (cc1__uniformity_kernel i arg2 harg2 arg3 harg3 arg4 harg4 arg5 harg5) K := by
  simp only [cc1__uniformity_kernel_eq_skeleton]; unfold cc1__uniformity_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_run_names
    rw [read_store_whole _ _ zero2]
    simp only [View.readAt_eq_ld, harg2.read_unread, harg3.read_unread, harg5.read_unread, View.ld_unit_zero (S := S512x64) zero2, View.ld_unit_zero (S := S1x1) zero2, View.readCov_unit_zero (S := S1x1) arg5.view zero2]
  iexists _; isplitr; swap; · iexact H5
  ipureintro
  sl_unfold_run_names
  rw [read_store_whole _ _ zero2]
  simp only [View.readAt_eq_ld, harg2.read_unread, harg3.read_unread, harg5.read_unread, View.ld_unit_zero (S := S512x64) zero2, View.ld_unit_zero (S := S1x1) zero2]

end Cert.Kernel.Body1

end
-- ==== Proof.KRegion1.lean ====
/-
  Region 1 (the second pallas_call) as a pipeline, at any float instance and any contents `V` of the buffers at its entry:
  the two input windows' blocks, what the one-word accumulator holds after each grid point, the proof data, and the
  body's obligation at every point.

  The grid has 256 points. At point `t` window 0 holds rows `512·(t / 16) …` and window 1 rows `512·(t % 16) …` of the
  SAME array; the body adds the tile's sum to the accumulator (zeroed at the first point) and at the last point copies
  it to the output's one-word buffer, which is then written back.
-/
import proofs.«112264_j73735998537818_1_alg».proof.Proof.KBody1

set_option maxRecDepth 16384

noncomputable section

namespace Cert.Kernel.Region1

open Cert.Kernel Cert.Kernel.Gen Cert.Kernel.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule: which points are first and last, where the output is idle -/

theorem N_eq : cfg1.N = 256 := N_1
theorem N_pos : 0 < cfg1.N := by rw [N_eq]; decide

/-- The first branch is taken at point 0 only; -/
theorem first_iff : ∀ t : Fin cfg1.N, isFirst (grid1.coords t) ↔ t.val = 0 :=
  (by decide +kernel : ∀ t : Fin grid1.N, isFirst (grid1.coords t) ↔ t.val = 0)
/-- the second at point 255 only. -/
theorem last_iff : ∀ t : Fin cfg1.N, isLast (grid1.coords t) ↔ t.val = 255 :=
  (by decide +kernel : ∀ t : Fin grid1.N, isLast (grid1.coords t) ↔ t.val = 255)
/-- The output window is idle (nothing stored into its buffer) and not written back at every point but the last, -/
theorem idle_out : ∀ t : Fin cfg1.N, t.val ≠ 255 → cfg1.idle 2 (grid1.coords t) = true :=
  (by decide +kernel : ∀ t : Fin grid1.N, t.val ≠ 255 → cfg1.idle 2 (grid1.coords t) = true)
theorem noflush_out : ∀ t : Fin cfg1.N, t.val ≠ 255 → (cfg1.win 2).flush t = false :=
  (by decide +kernel : ∀ t : Fin grid1.N, t.val ≠ 255 → win1_2.flush t = false)
/-- and live at the last. -/
theorem live_out : ∀ t : Fin cfg1.N, t.val = 255 → cfg1.idle 2 (grid1.coords t) = false :=
  (by decide +kernel : ∀ t : Fin grid1.N, t.val = 255 → cfg1.idle 2 (grid1.coords t) = false)

/-! ## The input windows' blocks and the accumulator -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Position `n` as a grid point (positions past the grid wrap; only `n < 256` is ever read). -/
def pt (n : ℕ) : Fin cfg1.N := ⟨n % cfg1.N, Nat.mod_lt _ N_pos⟩
theorem pt_val (t : Fin cfg1.N) : pt t.val = t := Fin.ext (Nat.mod_eq_of_lt t.isLt)

/-- The two blocks the body loads at position `n`. -/
def xb (c : Dev nD) (n : ℕ) : Vec F S512x64 .f32 := iblk V c 0 (pt n)
def yb (c : Dev nD) (n : ℕ) : Vec F S512x64 .f32 := iblk V c 1 (pt n)
theorem xb_val (c : Dev nD) (t : Fin cfg1.N) : xb V c t.val = iblk V c 0 t := by unfold xb; rw [pt_val]
theorem yb_val (c : Dev nD) (t : Fin cfg1.N) : yb V c t.val = iblk V c 1 t := by unfold yb; rw [pt_val]

/-- What the accumulator holds after position `n`: the body's stored value of the two blocks there and of what the
    accumulator held — zeros at the first position, else what the position before left. -/
def acc (c : Dev nD) : ℕ → Vec F S1x1 .f32
  | 0 => k1_pay2 (xb V c 0) (yb V c 0) (k1_pay1 (F := F))
  | n + 1 => k1_pay2 (xb V c (n + 1)) (yb V c (n + 1)) (acc c n)

/-! ## The invariant between points and the proof data -/

/-- The accumulator's buffer. -/
abbrev scM : Memref sig .tc .vmem S1x1 .f32 := Memref.whole cc1_scratch0

/-- What the region holds of the scoped buffers it does not stage, once the accumulator is taken out. -/
abbrev restOf (c : Dev nD) : sProp 𝕄 :=
  iprop(iprop(∃ d, owns (c : Thread nD τ) scM fullShare d) -∗ Pipeline.scopedRest (Ix := Unit) (Name := ℕ) (U := UR sig nD τ) (Lvl := ℕ) (Val := Elt F) spec1 c)

/-- Before position `n`: the accumulator at anything before the first point, afterwards at what the point before
    left; beside it the other scoped buffers, untouched. -/
def PhiS (c : Dev nD) : ℕ → sProp 𝕄
  | 0 => iprop(iprop(∃ d, owns (c : Thread nD τ) scM fullShare d) ∗ restOf c)
  | n + 1 => iprop(owns (c : Thread nD τ) scM fullShare (acc V c n) ∗ restOf c)

/-- The proof data on core `c`: the arrays as found; each input's buffer left at its block, the output's at the
    accumulator's value; the two input windows hold the two halves of the one array's share; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => acc V c t.val
  Φ t := PhiS V c t.val
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = acc V c t.val := by dsimp only [dat]

/-- Each input's current buffer holds its block at every point, fetched there or not: unfetched, the block index has
    not moved and the body left the block in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem PhiS_zero (c : Dev nD) : PhiS V c 0 = iprop(iprop(∃ d, owns (c : Thread nD τ) scM fullShare d) ∗ restOf c) := rfl
theorem PhiS_succ (c : Dev nD) (n : ℕ) : PhiS V c (n + 1) = iprop(owns (c : Thread nD τ) scM fullShare (acc V c n) ∗ restOf c) := rfl

theorem Phi_castSucc (c : Dev nD) (t : Fin cfg1.N) : (dat V c).Φ t.castSucc = PhiS V c t.val := by
  dsimp only [dat]; simp only [Fin.coe_castSucc]
theorem Phi_succ (c : Dev nD) (t : Fin cfg1.N) : (dat V c).Φ t.succ = PhiS V c (t.val + 1) := rfl

theorem leaves_0 (c : Dev nD) (t : Fin cfg1.N) :
    (dat V c).leavesExact 0 t = owns (c : Thread nD τ) (st1_0 t) fullShare (iblk V c 0 t) := by
  unfold Dat.leavesExact; rw [show cfg1.idle 0 (cfg1.grid.coords t) = false from rfl, after_0]
theorem leaves_1 (c : Dev nD) (t : Fin cfg1.N) :
    (dat V c).leavesExact 1 t = owns (c : Thread nD τ) (st1_1 t) fullShare (iblk V c 1 t) := by
  unfold Dat.leavesExact; rw [show cfg1.idle 1 (cfg1.grid.coords t) = false from rfl, after_1]

set_option maxHeartbeats 1600000 in
/-- The body at any point, by the point's case. The accumulator comes out of the invariant at what the point before left
    (at anything at the first point) and goes back at this point's value; the other scoped buffers and the core's dues pass
    through; each input's buffer holds its block before and after; the output's buffer is handed back untouched except at
    the last point, where it ends holding the accumulator's value. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl, Phi_castSucc, Phi_succ, leaves_0, leaves_1]
  have hN : t.val < 256 := lt_of_lt_of_eq t.isLt N_eq
  by_cases h0 : t.val = 0
  · -- the first point
    have hl : t.val ≠ 255 := by omega
    rw [Dat.leavesExact_idle (dat V c) 2 t (idle_out t hl) (noflush_out t hl), PhiS_succ V c t.val]
    rw [show acc V c t.val = k1_pay2 (iblk V c 0 t) (iblk V c 1 t) (k1_pay1 (F := F)) from by
      rw [← xb_val V c t, ← yb_val V c t, h0]; rfl]
    rw [show PhiS V c t.val = PhiS V c 0 from by rw [h0], PhiS_zero]
    iintro ⟨⟨⟨%a, HS⟩, Hw⟩, Ho, ⟨%d0, H0⟩, ⟨%d1, H1⟩, ⟨%d2, H2⟩⟩
    iapply (run_first c (grid1.coords t) _ _ _ _ _ _ _ _ ((first_iff t).mpr h0) (fun h => hl ((last_iff t).mp h)) (iblk V c 0 t) (iblk V c 1 t) a _ Set.univ _)
    isplitl [H0]; · iexact H0
    isplitl [H1]; · iexact H1
    isplitl [H2]; · iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexists _; iexact H2
  · obtain ⟨n, hn⟩ : ∃ n, t.val = n + 1 := ⟨t.val - 1, by omega⟩
    have hacc : acc V c t.val = k1_pay2 (iblk V c 0 t) (iblk V c 1 t) (acc V c n) := by
      rw [← xb_val V c t, ← yb_val V c t, hn]; rfl
    by_cases hl : t.val = 255
    · -- the last point
      rw [show (dat V c).leavesExact 2 t = owns (c : Thread nD τ) (st1_2 t) fullShare ((dat V c).after 2 t) from by
        unfold Dat.leavesExact; rw [live_out t hl], after_2, PhiS_succ V c t.val, hacc]
      rw [show PhiS V c t.val = PhiS V c (n + 1) from by rw [hn], PhiS_succ]
      iintro ⟨⟨HS, Hw⟩, Ho, ⟨%d0, H0⟩, ⟨%d1, H1⟩, ⟨%d2, H2⟩⟩
      iapply (run_last c (grid1.coords t) _ _ _ _ _ _ _ _ (fun h => h0 ((first_iff t).mp h)) ((last_iff t).mpr hl) (iblk V c 0 t) (iblk V c 1 t) (acc V c n) _ Set.univ _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexact H2
    · -- a middle point
      rw [Dat.leavesExact_idle (dat V c) 2 t (idle_out t hl) (noflush_out t hl), PhiS_succ V c t.val, hacc]
      rw [show PhiS V c t.val = PhiS V c (n + 1) from by rw [hn], PhiS_succ]
      iintro ⟨⟨HS, Hw⟩, Ho, ⟨%d0, H0⟩, ⟨%d1, H1⟩, ⟨%d2, H2⟩⟩
      iapply (run_mid c (grid1.coords t) _ _ _ _ _ _ _ _ (fun h => h0 ((first_iff t).mp h)) (fun h => hl ((last_iff t).mp h)) (iblk V c 0 t) (iblk V c 1 t) (acc V c n) _ Set.univ _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Region1

end
-- ==== Proof.KEdge1.lean ====
/-
  Region 1's two ends. Its three windows sit on TWO arrays: both input windows read `main_v5`, the output window writes
  `main_v13`. On entry the core's unscoped buffers give each input window one half of `main_v5`'s share and the output window
  all of `main_v13`; on exit the halves, which still hold what they held, are joined again and `main_v13` holds what the last
  point wrote back.
-/
import proofs.«112264_j73735998537818_1_alg».proof.Proof.KRegion1
import Idealize.ShloMosaic.Lib.Pipeline.Regions
import Idealize.ShloMosaic.Lib.Pipeline.RegionsLoop

set_option maxRecDepth 16384

noncomputable section

namespace Cert.Kernel.Region1

open Cert.Kernel Cert.Kernel.Gen Cert.Kernel.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's array is never written: after any number of points it holds what it held. -/
theorem arr_in0 (c : Dev nD) (n : ℕ) : (dat V c).arrAt 0 n = V c main_v5 := ((dat V c).arrAt_in 0 rfl n).trans (A_eq V c 0)
theorem arr_in1 (c : Dev nD) (n : ℕ) : (dat V c).arrAt 1 n = V c main_v5 := ((dat V c).arrAt_in 1 rfl n).trans (A_eq V c 1)
theorem arr_out_entry (c : Dev nD) : (dat V c).arrAt 2 0 = V c main_v13 := A_eq V c 2

theorem share_0 (c : Dev nD) : (dat V c).share 0 = fullShare.left := if_neg (by decide)
theorem share_1 (c : Dev nD) : (dat V c).share 1 = fullShare.right := if_neg (by decide)
theorem share_2 (c : Dev nD) : (dat V c).share 2 = fullShare := if_pos (by decide)

set_option backward.isDefEq.respectTransparency.types false in
/-- ENTRY: the unscoped buffers at `V` are the region's arrays at their entry contents — `main_v5` dealt in halves to the
    two input windows — and the unscoped buffers that are no array of the region. -/
theorem entry_split (c : Dev nD) :
    (unscopedBufs c (V c) : sProp 𝕄) ⊢ iprop((dat V c).arrays ((dat V c).arrAt · 0) ∗ Pipeline.unscopedRest spec1 c (V c)) := by
  rw [Pipeline.unscopedBufs_split₀ cfgs (1 : Fin 2) winFacts₀1.arr_unscoped c (V c)]
  refine sep_mono ?_ .rfl
  unfold Pipeline.arrBufs Dat.arrays
  rw [bigSep_eq_bigSepL_of_eq [main_v5, main_v13] (by decide) (by decide), bigSep_W1]
  rw [share_0, share_1, share_2, (arr_whole1 0).set_eq_univ, (arr_whole1 2).set_eq_univ]
  dsimp only
  rw [arr_in0, arr_in1, arr_out_entry]
  show iprop((((c : Thread nD τ).loc main_v5) ↦{fullShare} V c main_v5) ∗ (((c : Thread nD τ).loc main_v13) ↦{fullShare} V c main_v13)) ⊢ _
  iintro ⟨H2, H11⟩
  have hs : ((((c : Thread nD τ).loc main_v5) ↦{fullShare} V c main_v5) : sProp 𝕄)
      ⊢ iprop((((c : Thread nD τ).loc main_v5) ↦{fullShare.left} V c main_v5) ∗ (((c : Thread nD τ).loc main_v5) ↦{fullShare.right} V c main_v5)) :=
    (pointsTo_share (PosShare.mem_left_op_right fullShare)).1
  ihave Hs := hs $$ H2
  icases Hs with ⟨Hl, Hr⟩
  isplitl [Hl]; · iexact Hl
  isplitl [Hr]; · iexact Hr
  iexact H11

set_option backward.isDefEq.respectTransparency.types false in
/-- EXIT: the region's arrays at their final contents — the two halves of `main_v5` as found, `main_v13` at what was written
    back — and the unscoped rest at `V` are the core's unscoped buffers at any `V'` that has `main_v13` at that and agrees
    with `V` elsewhere. -/
theorem exit_join (c : Dev nD) (V' : (b : Ref sig .tc) → Buf (Elt F) ((c : Thread nD τ).loc b))
    (hout : V' main_v13 = (dat V c).arrAt 2 cfg1.N) (hrest : ∀ b, b ≠ main_v13 → V' b = V c b) :
    iprop((dat V c).arrays ((dat V c).arrAt · cfg1.N) ∗ Pipeline.unscopedRest spec1 c (V c)) ⊢ (unscopedBufs c V' : sProp 𝕄) := by
  rw [Pipeline.unscopedBufs_split₀ cfgs (1 : Fin 2) winFacts₀1.arr_unscoped c V']
  refine sep_mono ?_ (Entails.of_eq ?_)
  · unfold Pipeline.arrBufs Dat.arrays
    rw [bigSep_eq_bigSepL_of_eq [main_v5, main_v13] (by decide) (by decide), bigSep_W1]
    rw [share_0, share_1, share_2, (arr_whole1 0).set_eq_univ, (arr_whole1 2).set_eq_univ]
    dsimp only
    rw [arr_in0, arr_in1]
    show _ ⊢ iprop((((c : Thread nD τ).loc main_v5) ↦{fullShare} V' main_v5) ∗ (((c : Thread nD τ).loc main_v13) ↦{fullShare} V' main_v13))
    rw [hrest main_v5 (by decide), hout]
    iintro ⟨Hl, Hr, H11⟩
    isplitl [Hl Hr]
    · have hj : iprop((((c : Thread nD τ).loc main_v5) ↦{fullShare.left} V c main_v5) ∗ (((c : Thread nD τ).loc main_v5) ↦{fullShare.right} V c main_v5))
          ⊢ ((((c : Thread nD τ).loc main_v5) ↦{fullShare} V c main_v5) : sProp 𝕄) :=
        (pointsTo_share (PosShare.mem_left_op_right fullShare)).2
      iapply hj
      isplitl [Hl]; · iexact Hl
      iexact Hr
    iexact H11
  · unfold Pipeline.unscopedRest
    exact bigSep_congr fun b hb => by
      rw [hrest b (fun e => (Finset.mem_sdiff.mp hb).2 (e ▸ Finset.mem_image.mpr ⟨2, Finset.mem_univ _, rfl⟩))]

/-! ## The accumulator's buffer in and out of the scoped rest -/

/-- The scoped buffers the region does not stage are the accumulator's, at anything, and the others. -/
theorem rest_split (c : Dev nD) :
    (Pipeline.scopedRest (Ix := Unit) (Name := ℕ) (U := UR sig nD τ) (Lvl := ℕ) (Val := Elt F) spec1 c : sProp 𝕄)
      ⊢ iprop(iprop(∃ d, owns (c : Thread nD τ) scM fullShare d) ∗ restOf c) := by
  have key : ∀ (A B : sProp 𝕄), iprop(A ∗ B) ⊢ iprop(A ∗ (A -∗ iprop(A ∗ B))) := fun A B => by
    iintro ⟨HA, HB⟩
    isplitl [HA]; · iexact HA
    iintro HA
    isplitl [HA]; · iexact HA
    iexact HB
  show _ ⊢ iprop(iprop(∃ d, owns (c : Thread nD τ) scM fullShare d)
    ∗ (iprop(∃ d, owns (c : Thread nD τ) scM fullShare d) -∗ Pipeline.scopedRest (Ix := Unit) (Name := ℕ) (U := UR sig nD τ) (Lvl := ℕ) (Val := Elt F) spec1 c))
  rw [scopedRest1_eq]
  simp only [scM, owns_whole]
  iintro ⟨H1, H2, H3, H4, H5, H6, HA⟩
  isplitl [HA]; · iexact HA
  iintro HA
  isplitl [H1]; · iexact H1
  isplitl [H2]; · iexact H2
  isplitl [H3]; · iexact H3
  isplitl [H4]; · iexact H4
  isplitl [H5]; · iexact H5
  isplitl [H6]; · iexact H6
  iexact HA

/-- And back. -/
theorem rest_join (c : Dev nD) (a : Vec F S1x1 .f32) :
    iprop(owns (c : Thread nD τ) scM fullShare a ∗ restOf c)
      ⊢ (Pipeline.scopedRest (Ix := Unit) (Name := ℕ) (U := UR sig nD τ) (Lvl := ℕ) (Val := Elt F) spec1 c : sProp 𝕄) := by
  iintro ⟨H0, Hw⟩
  iapply Hw
  iexists _; iexact H0

end Cert.Kernel.Region1

end
-- ==== Proof.KRun.lean ====
/-
  @main of `Kernel` as segments: host stretches and the two kernel regions, at any float instance.

  Between two items core `c` holds every unscoped buffer whole at a known valuation: the launch contents, then each host
  stretch applied, then — after a region — the region's one-word result array at what the region's last point wrote back
  (`o5` after the first region, `o7` after the second). Each region is entered by splitting its two arrays out of the
  unscoped buffers (the array both input windows read dealt in halves) and left by joining them again.
-/
import proofs.«112264_j73735998537818_1_alg».proof.Proof.KEdge0
import proofs.«112264_j73735998537818_1_alg».proof.Proof.KEdge1
import proofs.«112264_j73735998537818_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' ends -/

/-- What the first region finds in each buffer. -/
abbrev Vin0 : (c : Dev nD) → (b : Ref sig .tc) → Buf (Elt F) ((c : Thread nD τ).loc b) := fun c b => V4 m c b
/-- What it leaves in its result array: the write-back of its last point. -/
def o5 (c : Dev nD) : Buf (Elt F) ((c : Thread nD τ).loc main_v11) := (Region0.dat (Vin0 m) c).arrAt 2 cfg0.N
/-- The buffers after the first region, then after the reshape that follows it. -/
abbrev W5 (c : Dev nD) : Valuation τ sig (Elt F) := Function.update (V4 m c) main_v11 (o5 m c)
abbrev W6 (c : Dev nD) : Valuation τ sig (Elt F) := StableHlo.after hostOps1 (W5 m c)
/-- What the second region finds, and what it leaves in its result array. -/
abbrev Vin1 : (c : Dev nD) → (b : Ref sig .tc) → Buf (Elt F) ((c : Thread nD τ).loc b) := fun c b => W6 m c b
def o7 (c : Dev nD) : Buf (Elt F) ((c : Thread nD τ).loc main_v13) := (Region1.dat (Vin1 m) c).arrAt 2 cfg1.N

/-- The regions' results, as the family the generated valuations `V5`, `V7` read. -/
def outs : Outs (F := F) := fun _ r c =>
  if h : r = main_v11 then h ▸ o5 m c else if h : r = main_v13 then h ▸ o7 m c else V4 m c r

theorem outs_5 (c : Dev nD) : outs m 5 main_v11 c = o5 m c := by unfold outs; rw [dif_pos rfl]
theorem outs_7 (c : Dev nD) : outs m 7 main_v13 c = o7 m c := by unfold outs; rw [dif_neg (by decide), dif_pos rfl]
theorem V5_eq (c : Dev nD) : V5 m (outs m) c = W5 m c := by
  show Function.update (V4 m c) main_v11 (outs m 5 main_v11 c) = _; rw [outs_5]
theorem V6_eq (c : Dev nD) : V6 m (outs m) c = W6 m c := by
  show StableHlo.after hostOps1 (V5 m (outs m) c) = _; rw [V5_eq]

/-! ## The proof data family and what rides beside the buffers -/

def pdats : (p : Fin 2) → (c : Dev nD) → Dat τ (Elt F) Unit ℕ (UR sig nD τ) ℕ (Pipeline.pin (pcfgs (F := F)) adm p) c
  | ⟨0, _⟩ => fun c => Region0.dat (Vin0 m) c
  | ⟨1, _⟩ => fun c => Region1.dat (Vin1 m) c

abbrev L : GSem nD τ sig → Finset Unit := fun _ => ∅
abbrev lv : GSem nD τ sig → Unit → ℕ := fun _ _ => 0
/-- Beside the buffers: the core owing nothing. -/
abbrev R (c : Dev nD) : sProp 𝕄 := iprop(∃ W, owes (c : Thread nD τ) (0 : CellTallies nD τ sig Unit) W)

/-! ## The regions as segments -/

set_option backward.isDefEq.respectTransparency.types false in
def reg0 : RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (Region0.body_obligation (Vin0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(emp)
  Y c := iprop(emp)
  Z c := Pipeline.unscopedRest (Ix := Unit) (Name := ℕ) (U := UR sig nD τ) (Lvl := ℕ) spec0 c (Vin0 m c)
  hentry c := by
    rw [Pipeline.ownSems0_none]
    have hsplit := Region0.entry_split (Vin0 m) c
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Region0.PhiS (Vin0 m) c 0 from rfl, Region0.PhiS_zero]
    iintro ⟨-, -, Hr⟩
    iapply (Region0.rest_split c)
    iexact Hr
  hout c := by
    rw [Pipeline.ownSems0_none, show (pdats m 0 c).Φ (Fin.last _) = Region0.PhiS (Vin0 m) c (255 + 1) from rfl, Region0.PhiS_succ]
    iintro H
    isplitr; · iempintro
    isplitr; · iempintro
    iapply (Region0.rest_join c _)
    iexact H
  hexit c := by
    have hjoin := Region0.exit_join (Vin0 m) c (fun b => V5 m (outs m) c b)
      (by show Function.update (V4 m c) main_v11 (outs m 5 main_v11 c) main_v11 = _; rw [Function.update_self, outs_5]; rfl)
      (fun b hb => by show Function.update (V4 m c) main_v11 (outs m 5 main_v11 c) b = _; rw [Function.update_of_ne (StableHlo.devRef_ne_of_ne hb)])
    rw [Pipeline.unscopedBufs_held] at hjoin
    iintro ⟨Ha, HO, -, Hrest⟩
    imodintro
    isplitl [Ha Hrest]
    · iapply hjoin
      isplitl [Ha]; · iexact Ha
      iexact Hrest
    unfold Pipeline.Dat.owesAt Pipeline.owesWithin
    icases HO with ⟨%W, -, HO⟩; iexists W; iexact HO

set_option backward.isDefEq.respectTransparency.types false in
def reg1 : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Region1.body_obligation (Vin1 m) c).loose
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(emp)
  Y c := iprop(emp)
  Z c := Pipeline.unscopedRest (Ix := Unit) (Name := ℕ) (U := UR sig nD τ) (Lvl := ℕ) spec1 c (Vin1 m c)
  hentry c := by
    rw [Pipeline.ownSems0_none, V6_eq]
    have hsplit := Region1.entry_split (Vin1 m) c
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Region1.PhiS (Vin1 m) c 0 from rfl, Region1.PhiS_zero]
    iintro ⟨-, -, Hr⟩
    iapply (Region1.rest_split c)
    iexact Hr
  hout c := by
    rw [Pipeline.ownSems0_none, show (pdats m 1 c).Φ (Fin.last _) = Region1.PhiS (Vin1 m) c (255 + 1) from rfl, Region1.PhiS_succ]
    iintro H
    isplitr; · iempintro
    isplitr; · iempintro
    iapply (Region1.rest_join c _)
    iexact H
  hexit c := by
    have hjoin := Region1.exit_join (Vin1 m) c (fun b => V7 m (outs m) c b)
      (by show Function.update (V6 m (outs m) c) main_v13 (outs m 7 main_v13 c) main_v13 = _; rw [Function.update_self, outs_7]; rfl)
      (fun b hb => by show Function.update (V6 m (outs m) c) main_v13 (outs m 7 main_v13 c) b = _; rw [Function.update_of_ne (StableHlo.devRef_ne_of_ne hb), V6_eq])
    rw [Pipeline.unscopedBufs_held] at hjoin
    iintro ⟨Ha, HO, -, Hrest⟩
    imodintro
    isplitl [Ha Hrest]
    · iapply hjoin
      isplitl [Ha]; · iexact Ha
      iexact Hrest
    unfold Pipeline.Dat.owesAt Pipeline.owesWithin
    icases HO with ⟨%W, -, HO⟩; iexists W; iexact HO

/-! ## The run -/

/-- The launch element: the pipeline library's, at every pipeline's staging cells. -/
abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Of what the launch deals a core, the certificate keeps the core's dues (none). -/
theorem core_rest (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ R c := by
  iintro ⟨-, HO, -, -, -⟩
  iexists ∅
  iexact HO

set_option backward.isDefEq.respectTransparency.types false in
/-- THE FRAME: every weakly fair execution of @main terminates, nothing faulting, each argument array ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond (F := F) m emb₁ () Variants.none L lv (fun _ _ => rfl) ρ (outs m) (pdats m) 0 (fun _ => iprop(emp)) u₀ hu₀
    (fun _ c => R c)
    (by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄)
          ⊢ bigSep Finset.univ fun c : Dev nD => R c :=
        bigSep_mono fun c _ => core_rest ρ c
      iintro ⟨H, -⟩; imodintro
      iapply hmono
      iexact H)
    (fun c => .rfl)
    (reg0 m) (fun c => .rfl) (fun c => .rfl)
    (reg1 m) (fun c => .rfl) (fun c => .rfl)

end Cert.Kernel.Run

end
-- ==== Proof.IBody0.lean ====
/-
  The kernel body at one grid point, as three runs (first point, a middle point, last point), at any float instance.
-/
import proofs.«112264_j73735998537818_1_alg».proof.Proof.Gen.KernelIdeal.Launch
import proofs.«112264_j73735998537818_1_alg».proof.Proof.Gen.KernelIdeal.Skeleton
import proofs.«112264_j73735998537818_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«112264_j73735998537818_1_alg».proof.Proof.LibWholeStore
set_option maxRecDepth 16384

noncomputable section

namespace Cert.KernelIdeal.Body0

open Cert.KernelIdeal Cert.KernelIdeal.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid point -/

/-- "This is the first grid point": the first `scf.if`'s condition, the scalar chain over the coordinates. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": the second `scf.if`'s condition. -/
abbrev isLast (i : grid0.Coords) : Prop := k0_cond2 i = 1#1

/-! ## The body, case by case

At every point the body adds the tile's sum to the one-word scratch accumulator (`k0_pay2` of the two input blocks and
the accumulator's contents). At the first point it zeroes the accumulator first (`k0_pay1`); at the last it copies the
accumulator into the output's buffer. -/

/-- A middle point: the accumulator goes from `a` to `k0_pay2 x y a`; nothing else changes. -/
theorem run_mid (c : Dev nD) (i : grid0.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : ¬ isFirst i) (hc2 : ¬ isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare o ∗ owns (c : Thread nD τ) arg5 fullShare (k0_pay2 x y a)) -∗ K ⟨⟩))
      ⊢ wp frame (wpE (defs₀ (F := F)) Variants.none c none) E (cc0__uniformity_kernel i arg2 harg2 arg3 harg3 arg4 harg4 arg5 harg5) K := by
  simp only [cc0__uniformity_kernel_eq_skeleton]; unfold cc0__uniformity_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_run_names
  rw [read_store_whole _ _ zero2]
  simp only [View.readAt_eq_ld, harg2.read_unread, harg3.read_unread, harg5.read_unread, View.ld_unit_zero (S := S512x64) zero2, View.ld_unit_zero (S := S1x1) zero2]

/-- The first point: the accumulator, whatever it held, ends at `k0_pay2 x y k0_pay1`. -/
theorem run_first (c : Dev nD) (i : grid0.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : isFirst i) (hc2 : ¬ isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare o ∗ owns (c : Thread nD τ) arg5 fullShare (k0_pay2 x y (k0_pay1 (F := F)))) -∗ K ⟨⟩))
      ⊢ wp frame (wpE (defs₀ (F := F)) Variants.none c none) E (cc0__uniformity_kernel i arg2 harg2 arg3 harg3 arg4 harg4 arg5 harg5) K := by
  simp only [cc0__uniformity_kernel_eq_skeleton]; unfold cc0__uniformity_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_run_names
  rw [read_store_whole₂ _ _ zero2]
  simp only [View.readAt_eq_ld, harg2.read_unread, harg3.read_unread, View.ld_unit_zero (S := S512x64) zero2, View.readCov_unit_zero (S := S1x1) arg5.view zero2]

/-- The last point: the accumulator goes from `a` to `k0_pay2 x y a`, and the output's buffer ends holding the same. -/
theorem run_last (c : Dev nD) (i : grid0.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : ¬ isFirst i) (hc2 : isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare (k0_pay2 x y a) ∗ owns (c : Thread nD τ) arg5 fullShare (k0_pay2 x y a)) -∗ K ⟨⟩))
      ⊢ wp frame (wpE (defs₀ (F := F)) Variants.none c none) E (cc0__uniformity_kernel i arg2 harg2 arg3 harg3 arg4 harg4 arg5 harg5) K := by
  simp only [cc0__uniformity_kernel_eq_skeleton]; unfold cc0__uniformity_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_run_names
    rw [read_store_whole _ _ zero2]
    simp only [View.readAt_eq_ld, harg2.read_unread, harg3.read_unread, harg5.read_unread, View.ld_unit_zero (S := S512x64) zero2, View.ld_unit_zero (S := S1x1) zero2, View.readCov_unit_zero (S := S1x1) arg5.view zero2]
  iexists _; isplitr; swap; · iexact H5
  ipureintro
  sl_unfold_run_names
  rw [read_store_whole _ _ zero2]
  simp only [View.readAt_eq_ld, harg2.read_unread, harg3.read_unread, harg5.read_unread, View.ld_unit_zero (S := S512x64) zero2, View.ld_unit_zero (S := S1x1) zero2]

end Cert.KernelIdeal.Body0

end
-- ==== Proof.IRegion0.lean ====
/-
  Region 0 (the first pallas_call) as a pipeline, at any float instance and any contents `V` of the buffers at its entry:
  the two input windows' blocks, what the one-word accumulator holds after each grid point, the proof data, and the
  body's obligation at every point.

  The grid has 256 points. At point `t` window 0 holds rows `512·(t / 16) …` and window 1 rows `512·(t % 16) …` of the
  SAME array; the body adds the tile's sum to the accumulator (zeroed at the first point) and at the last point copies
  it to the output's one-word buffer, which is then written back.
-/
import proofs.«112264_j73735998537818_1_alg».proof.Proof.IBody0

set_option maxRecDepth 16384

noncomputable section

namespace Cert.KernelIdeal.Region0

open Cert.KernelIdeal Cert.KernelIdeal.Gen Cert.KernelIdeal.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule: which points are first and last, where the output is idle -/

theorem N_eq : cfg0.N = 256 := N_0
theorem N_pos : 0 < cfg0.N := by rw [N_eq]; decide

/-- The first branch is taken at point 0 only; -/
theorem first_iff : ∀ t : Fin cfg0.N, isFirst (grid0.coords t) ↔ t.val = 0 :=
  (by decide +kernel : ∀ t : Fin grid0.N, isFirst (grid0.coords t) ↔ t.val = 0)
/-- the second at point 255 only. -/
theorem last_iff : ∀ t : Fin cfg0.N, isLast (grid0.coords t) ↔ t.val = 255 :=
  (by decide +kernel : ∀ t : Fin grid0.N, isLast (grid0.coords t) ↔ t.val = 255)
/-- The output window is idle (nothing stored into its buffer) and not written back at every point but the last, -/
theorem idle_out : ∀ t : Fin cfg0.N, t.val ≠ 255 → cfg0.idle 2 (grid0.coords t) = true :=
  (by decide +kernel : ∀ t : Fin grid0.N, t.val ≠ 255 → cfg0.idle 2 (grid0.coords t) = true)
theorem noflush_out : ∀ t : Fin cfg0.N, t.val ≠ 255 → (cfg0.win 2).flush t = false :=
  (by decide +kernel : ∀ t : Fin grid0.N, t.val ≠ 255 → win0_2.flush t = false)
/-- and live at the last. -/
theorem live_out : ∀ t : Fin cfg0.N, t.val = 255 → cfg0.idle 2 (grid0.coords t) = false :=
  (by decide +kernel : ∀ t : Fin grid0.N, t.val = 255 → cfg0.idle 2 (grid0.coords t) = false)

/-! ## The input windows' blocks and the accumulator -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Position `n` as a grid point (positions past the grid wrap; only `n < 256` is ever read). -/
def pt (n : ℕ) : Fin cfg0.N := ⟨n % cfg0.N, Nat.mod_lt _ N_pos⟩
theorem pt_val (t : Fin cfg0.N) : pt t.val = t := Fin.ext (Nat.mod_eq_of_lt t.isLt)

/-- The two blocks the body loads at position `n`. -/
def xb (c : Dev nD) (n : ℕ) : Vec F S512x64 .f32 := iblk V c 0 (pt n)
def yb (c : Dev nD) (n : ℕ) : Vec F S512x64 .f32 := iblk V c 1 (pt n)
theorem xb_val (c : Dev nD) (t : Fin cfg0.N) : xb V c t.val = iblk V c 0 t := by unfold xb; rw [pt_val]
theorem yb_val (c : Dev nD) (t : Fin cfg0.N) : yb V c t.val = iblk V c 1 t := by unfold yb; rw [pt_val]

/-- What the accumulator holds after position `n`: the body's stored value of the two blocks there and of what the
    accumulator held — zeros at the first position, else what the position before left. -/
def acc (c : Dev nD) : ℕ → Vec F S1x1 .f32
  | 0 => k0_pay2 (xb V c 0) (yb V c 0) (k0_pay1 (F := F))
  | n + 1 => k0_pay2 (xb V c (n + 1)) (yb V c (n + 1)) (acc c n)

/-! ## The invariant between points and the proof data -/

/-- The accumulator's buffer. -/
abbrev scM : Memref sig .tc .vmem S1x1 .f32 := Memref.whole cc0_scratch0

/-- What the region holds of the scoped buffers it does not stage, once the accumulator is taken out. -/
abbrev restOf (c : Dev nD) : sProp 𝕄 :=
  iprop(iprop(∃ d, owns (c : Thread nD τ) scM fullShare d) -∗ Pipeline.scopedRest (Ix := Unit) (Name := ℕ) (U := UR sig nD τ) (Lvl := ℕ) (Val := Elt F) spec0 c)

/-- Before position `n`: the accumulator at anything before the first point, afterwards at what the point before
    left; beside it the other scoped buffers, untouched. -/
def PhiS (c : Dev nD) : ℕ → sProp 𝕄
  | 0 => iprop(iprop(∃ d, owns (c : Thread nD τ) scM fullShare d) ∗ restOf c)
  | n + 1 => iprop(owns (c : Thread nD τ) scM fullShare (acc V c n) ∗ restOf c)

/-- The proof data on core `c`: the arrays as found; each input's buffer left at its block, the output's at the
    accumulator's value; the two input windows hold the two halves of the one array's share; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val
  Φ t := PhiS V c t.val
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = acc V c t.val := by dsimp only [dat]

/-- Each input's current buffer holds its block at every point, fetched there or not: unfetched, the block index has
    not moved and the body left the block in place. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem PhiS_zero (c : Dev nD) : PhiS V c 0 = iprop(iprop(∃ d, owns (c : Thread nD τ) scM fullShare d) ∗ restOf c) := rfl
theorem PhiS_succ (c : Dev nD) (n : ℕ) : PhiS V c (n + 1) = iprop(owns (c : Thread nD τ) scM fullShare (acc V c n) ∗ restOf c) := rfl

theorem Phi_castSucc (c : Dev nD) (t : Fin cfg0.N) : (dat V c).Φ t.castSucc = PhiS V c t.val := by
  dsimp only [dat]; simp only [Fin.coe_castSucc]
theorem Phi_succ (c : Dev nD) (t : Fin cfg0.N) : (dat V c).Φ t.succ = PhiS V c (t.val + 1) := rfl

theorem leaves_0 (c : Dev nD) (t : Fin cfg0.N) :
    (dat V c).leavesExact 0 t = owns (c : Thread nD τ) (st0_0 t) fullShare (iblk V c 0 t) := by
  unfold Dat.leavesExact; rw [show cfg0.idle 0 (cfg0.grid.coords t) = false from rfl, after_0]
theorem leaves_1 (c : Dev nD) (t : Fin cfg0.N) :
    (dat V c).leavesExact 1 t = owns (c : Thread nD τ) (st0_1 t) fullShare (iblk V c 1 t) := by
  unfold Dat.leavesExact; rw [show cfg0.idle 1 (cfg0.grid.coords t) = false from rfl, after_1]

set_option maxHeartbeats 1600000 in
/-- The body at any point, by the point's case. The accumulator comes out of the invariant at what the point before left
    (at anything at the first point) and goes back at this point's value; the other scoped buffers and the core's dues pass
    through; each input's buffer holds its block before and after; the output's buffer is handed back untouched except at
    the last point, where it ends holding the accumulator's value. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl, Phi_castSucc, Phi_succ, leaves_0, leaves_1]
  have hN : t.val < 256 := lt_of_lt_of_eq t.isLt N_eq
  by_cases h0 : t.val = 0
  · -- the first point
    have hl : t.val ≠ 255 := by omega
    rw [Dat.leavesExact_idle (dat V c) 2 t (idle_out t hl) (noflush_out t hl), PhiS_succ V c t.val]
    rw [show acc V c t.val = k0_pay2 (iblk V c 0 t) (iblk V c 1 t) (k0_pay1 (F := F)) from by
      rw [← xb_val V c t, ← yb_val V c t, h0]; rfl]
    rw [show PhiS V c t.val = PhiS V c 0 from by rw [h0], PhiS_zero]
    iintro ⟨⟨⟨%a, HS⟩, Hw⟩, Ho, ⟨%d0, H0⟩, ⟨%d1, H1⟩, ⟨%d2, H2⟩⟩
    iapply (run_first c (grid0.coords t) _ _ _ _ _ _ _ _ ((first_iff t).mpr h0) (fun h => hl ((last_iff t).mp h)) (iblk V c 0 t) (iblk V c 1 t) a _ Set.univ _)
    isplitl [H0]; · iexact H0
    isplitl [H1]; · iexact H1
    isplitl [H2]; · iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexists _; iexact H2
  · obtain ⟨n, hn⟩ : ∃ n, t.val = n + 1 := ⟨t.val - 1, by omega⟩
    have hacc : acc V c t.val = k0_pay2 (iblk V c 0 t) (iblk V c 1 t) (acc V c n) := by
      rw [← xb_val V c t, ← yb_val V c t, hn]; rfl
    by_cases hl : t.val = 255
    · -- the last point
      rw [show (dat V c).leavesExact 2 t = owns (c : Thread nD τ) (st0_2 t) fullShare ((dat V c).after 2 t) from by
        unfold Dat.leavesExact; rw [live_out t hl], after_2, PhiS_succ V c t.val, hacc]
      rw [show PhiS V c t.val = PhiS V c (n + 1) from by rw [hn], PhiS_succ]
      iintro ⟨⟨HS, Hw⟩, Ho, ⟨%d0, H0⟩, ⟨%d1, H1⟩, ⟨%d2, H2⟩⟩
      iapply (run_last c (grid0.coords t) _ _ _ _ _ _ _ _ (fun h => h0 ((first_iff t).mp h)) ((last_iff t).mpr hl) (iblk V c 0 t) (iblk V c 1 t) (acc V c n) _ Set.univ _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexact H2
    · -- a middle point
      rw [Dat.leavesExact_idle (dat V c) 2 t (idle_out t hl) (noflush_out t hl), PhiS_succ V c t.val, hacc]
      rw [show PhiS V c t.val = PhiS V c (n + 1) from by rw [hn], PhiS_succ]
      iintro ⟨⟨HS, Hw⟩, Ho, ⟨%d0, H0⟩, ⟨%d1, H1⟩, ⟨%d2, H2⟩⟩
      iapply (run_mid c (grid0.coords t) _ _ _ _ _ _ _ _ (fun h => h0 ((first_iff t).mp h)) (fun h => hl ((last_iff t).mp h)) (iblk V c 0 t) (iblk V c 1 t) (acc V c n) _ Set.univ _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Region0

end
-- ==== Proof.IEdge0.lean ====
/-
  Region 0's two ends. Its three windows sit on TWO arrays: both input windows read `main_v2`, the output window writes
  `main_v11`. On entry the core's unscoped buffers give each input window one half of `main_v2`'s share and the output window
  all of `main_v11`; on exit the halves, which still hold what they held, are joined again and `main_v11` holds what the last
  point wrote back.
-/
import proofs.«112264_j73735998537818_1_alg».proof.Proof.IRegion0
import Idealize.ShloMosaic.Lib.Pipeline.Regions
import Idealize.ShloMosaic.Lib.Pipeline.RegionsLoop

set_option maxRecDepth 16384

noncomputable section

namespace Cert.KernelIdeal.Region0

open Cert.KernelIdeal Cert.KernelIdeal.Gen Cert.KernelIdeal.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's array is never written: after any number of points it holds what it held. -/
theorem arr_in0 (c : Dev nD) (n : ℕ) : (dat V c).arrAt 0 n = V c main_v2 := ((dat V c).arrAt_in 0 rfl n).trans (A_eq V c 0)
theorem arr_in1 (c : Dev nD) (n : ℕ) : (dat V c).arrAt 1 n = V c main_v2 := ((dat V c).arrAt_in 1 rfl n).trans (A_eq V c 1)
theorem arr_out_entry (c : Dev nD) : (dat V c).arrAt 2 0 = V c main_v11 := A_eq V c 2

theorem share_0 (c : Dev nD) : (dat V c).share 0 = fullShare.left := if_neg (by decide)
theorem share_1 (c : Dev nD) : (dat V c).share 1 = fullShare.right := if_neg (by decide)
theorem share_2 (c : Dev nD) : (dat V c).share 2 = fullShare := if_pos (by decide)

set_option backward.isDefEq.respectTransparency.types false in
/-- ENTRY: the unscoped buffers at `V` are the region's arrays at their entry contents — `main_v2` dealt in halves to the
    two input windows — and the unscoped buffers that are no array of the region. -/
theorem entry_split (c : Dev nD) :
    (unscopedBufs c (V c) : sProp 𝕄) ⊢ iprop((dat V c).arrays ((dat V c).arrAt · 0) ∗ Pipeline.unscopedRest spec0 c (V c)) := by
  rw [Pipeline.unscopedBufs_split₀ cfgs (0 : Fin 2) winFacts₀0.arr_unscoped c (V c)]
  refine sep_mono ?_ .rfl
  unfold Pipeline.arrBufs Dat.arrays
  rw [bigSep_eq_bigSepL_of_eq [main_v2, main_v11] (by decide) (by decide), bigSep_W0]
  rw [share_0, share_1, share_2, (arr_whole0 0).set_eq_univ, (arr_whole0 2).set_eq_univ]
  dsimp only
  rw [arr_in0, arr_in1, arr_out_entry]
  show iprop((((c : Thread nD τ).loc main_v2) ↦{fullShare} V c main_v2) ∗ (((c : Thread nD τ).loc main_v11) ↦{fullShare} V c main_v11)) ⊢ _
  iintro ⟨H2, H11⟩
  have hs : ((((c : Thread nD τ).loc main_v2) ↦{fullShare} V c main_v2) : sProp 𝕄)
      ⊢ iprop((((c : Thread nD τ).loc main_v2) ↦{fullShare.left} V c main_v2) ∗ (((c : Thread nD τ).loc main_v2) ↦{fullShare.right} V c main_v2)) :=
    (pointsTo_share (PosShare.mem_left_op_right fullShare)).1
  ihave Hs := hs $$ H2
  icases Hs with ⟨Hl, Hr⟩
  isplitl [Hl]; · iexact Hl
  isplitl [Hr]; · iexact Hr
  iexact H11

set_option backward.isDefEq.respectTransparency.types false in
/-- EXIT: the region's arrays at their final contents — the two halves of `main_v2` as found, `main_v11` at what was written
    back — and the unscoped rest at `V` are the core's unscoped buffers at any `V'` that has `main_v11` at that and agrees
    with `V` elsewhere. -/
theorem exit_join (c : Dev nD) (V' : (b : Ref sig .tc) → Buf (Elt F) ((c : Thread nD τ).loc b))
    (hout : V' main_v11 = (dat V c).arrAt 2 cfg0.N) (hrest : ∀ b, b ≠ main_v11 → V' b = V c b) :
    iprop((dat V c).arrays ((dat V c).arrAt · cfg0.N) ∗ Pipeline.unscopedRest spec0 c (V c)) ⊢ (unscopedBufs c V' : sProp 𝕄) := by
  rw [Pipeline.unscopedBufs_split₀ cfgs (0 : Fin 2) winFacts₀0.arr_unscoped c V']
  refine sep_mono ?_ (Entails.of_eq ?_)
  · unfold Pipeline.arrBufs Dat.arrays
    rw [bigSep_eq_bigSepL_of_eq [main_v2, main_v11] (by decide) (by decide), bigSep_W0]
    rw [share_0, share_1, share_2, (arr_whole0 0).set_eq_univ, (arr_whole0 2).set_eq_univ]
    dsimp only
    rw [arr_in0, arr_in1]
    show _ ⊢ iprop((((c : Thread nD τ).loc main_v2) ↦{fullShare} V' main_v2) ∗ (((c : Thread nD τ).loc main_v11) ↦{fullShare} V' main_v11))
    rw [hrest main_v2 (by decide), hout]
    iintro ⟨Hl, Hr, H11⟩
    isplitl [Hl Hr]
    · have hj : iprop((((c : Thread nD τ).loc main_v2) ↦{fullShare.left} V c main_v2) ∗ (((c : Thread nD τ).loc main_v2) ↦{fullShare.right} V c main_v2))
          ⊢ ((((c : Thread nD τ).loc main_v2) ↦{fullShare} V c main_v2) : sProp 𝕄) :=
        (pointsTo_share (PosShare.mem_left_op_right fullShare)).2
      iapply hj
      isplitl [Hl]; · iexact Hl
      iexact Hr
    iexact H11
  · unfold Pipeline.unscopedRest
    exact bigSep_congr fun b hb => by
      rw [hrest b (fun e => (Finset.mem_sdiff.mp hb).2 (e ▸ Finset.mem_image.mpr ⟨2, Finset.mem_univ _, rfl⟩))]

/-! ## The accumulator's buffer in and out of the scoped rest -/

/-- The scoped buffers the region does not stage are the accumulator's, at anything, and the others. -/
theorem rest_split (c : Dev nD) :
    (Pipeline.scopedRest (Ix := Unit) (Name := ℕ) (U := UR sig nD τ) (Lvl := ℕ) (Val := Elt F) spec0 c : sProp 𝕄)
      ⊢ iprop(iprop(∃ d, owns (c : Thread nD τ) scM fullShare d) ∗ restOf c) := by
  have key : ∀ (A B : sProp 𝕄), iprop(A ∗ B) ⊢ iprop(A ∗ (A -∗ iprop(A ∗ B))) := fun A B => by
    iintro ⟨HA, HB⟩
    isplitl [HA]; · iexact HA
    iintro HA
    isplitl [HA]; · iexact HA
    iexact HB
  show _ ⊢ iprop(iprop(∃ d, owns (c : Thread nD τ) scM fullShare d)
    ∗ (iprop(∃ d, owns (c : Thread nD τ) scM fullShare d) -∗ Pipeline.scopedRest (Ix := Unit) (Name := ℕ) (U := UR sig nD τ) (Lvl := ℕ) (Val := Elt F) spec0 c))
  rw [scopedRest0_eq]
  simp only [scM, owns_whole]
  exact key _ _

/-- And back. -/
theorem rest_join (c : Dev nD) (a : Vec F S1x1 .f32) :
    iprop(owns (c : Thread nD τ) scM fullShare a ∗ restOf c)
      ⊢ (Pipeline.scopedRest (Ix := Unit) (Name := ℕ) (U := UR sig nD τ) (Lvl := ℕ) (Val := Elt F) spec0 c : sProp 𝕄) := by
  iintro ⟨H0, Hw⟩
  iapply Hw
  iexists _; iexact H0

end Cert.KernelIdeal.Region0

end
-- ==== Proof.IBody1.lean ====
/-
  The kernel body at one grid point, as three runs (first point, a middle point, last point), at any float instance.
-/
import proofs.«112264_j73735998537818_1_alg».proof.Proof.Gen.KernelIdeal.Launch
import proofs.«112264_j73735998537818_1_alg».proof.Proof.Gen.KernelIdeal.Skeleton
import proofs.«112264_j73735998537818_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«112264_j73735998537818_1_alg».proof.Proof.LibWholeStore
set_option maxRecDepth 16384

noncomputable section

namespace Cert.KernelIdeal.Body1

open Cert.KernelIdeal Cert.KernelIdeal.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid point -/

/-- "This is the first grid point": the first `scf.if`'s condition, the scalar chain over the coordinates. -/
abbrev isFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": the second `scf.if`'s condition. -/
abbrev isLast (i : grid1.Coords) : Prop := k1_cond2 i = 1#1

/-! ## The body, case by case

At every point the body adds the tile's sum to the one-word scratch accumulator (`k1_pay2` of the two input blocks and
the accumulator's contents). At the first point it zeroes the accumulator first (`k1_pay1`); at the last it copies the
accumulator into the output's buffer. -/

/-- A middle point: the accumulator goes from `a` to `k1_pay2 x y a`; nothing else changes. -/
theorem run_mid (c : Dev nD) (i : grid1.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : ¬ isFirst i) (hc2 : ¬ isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare o ∗ owns (c : Thread nD τ) arg5 fullShare (k1_pay2 x y a)) -∗ K ⟨⟩))
      ⊢ wp frame (wpE (defs₀ (F := F)) Variants.none c none) E (cc1__uniformity_kernel i arg2 harg2 arg3 harg3 arg4 harg4 arg5 harg5) K := by
  simp only [cc1__uniformity_kernel_eq_skeleton]; unfold cc1__uniformity_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_run_names
  rw [read_store_whole _ _ zero2]
  simp only [View.readAt_eq_ld, harg2.read_unread, harg3.read_unread, harg5.read_unread, View.ld_unit_zero (S := S512x64) zero2, View.ld_unit_zero (S := S1x1) zero2]

/-- The first point: the accumulator, whatever it held, ends at `k1_pay2 x y k1_pay1`. -/
theorem run_first (c : Dev nD) (i : grid1.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : isFirst i) (hc2 : ¬ isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare o ∗ owns (c : Thread nD τ) arg5 fullShare (k1_pay2 x y (k1_pay1 (F := F)))) -∗ K ⟨⟩))
      ⊢ wp frame (wpE (defs₀ (F := F)) Variants.none c none) E (cc1__uniformity_kernel i arg2 harg2 arg3 harg3 arg4 harg4 arg5 harg5) K := by
  simp only [cc1__uniformity_kernel_eq_skeleton]; unfold cc1__uniformity_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_run_names
  rw [read_store_whole₂ _ _ zero2]
  simp only [View.readAt_eq_ld, harg2.read_unread, harg3.read_unread, View.ld_unit_zero (S := S512x64) zero2, View.readCov_unit_zero (S := S1x1) arg5.view zero2]

/-- The last point: the accumulator goes from `a` to `k1_pay2 x y a`, and the output's buffer ends holding the same. -/
theorem run_last (c : Dev nD) (i : grid1.Coords) (arg2 : Memref sig .tc .vmem S512x64 .f32) (harg2 : arg2.IsWhole) (arg3 : Memref sig .tc .vmem S512x64 .f32) (harg3 : arg3.IsWhole)
    (arg4 : Memref sig .tc .vmem S1x1 .f32) (harg4 : arg4.IsWhole) (arg5 : Memref sig .tc .vmem S1x1 .f32) (harg5 : arg5.IsWhole)
    (hc1 : ¬ isFirst i) (hc2 : isLast i)
    (x y : Vec F S512x64 .f32) (a o : Vec F S1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare (k1_pay2 x y a) ∗ owns (c : Thread nD τ) arg5 fullShare (k1_pay2 x y a)) -∗ K ⟨⟩))
      ⊢ wp frame (wpE (defs₀ (F := F)) Variants.none c none) E (cc1__uniformity_kernel i arg2 harg2 arg3 harg3 arg4 harg4 arg5 harg5) K := by
  simp only [cc1__uniformity_kernel_eq_skeleton]; unfold cc1__uniformity_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_run_names
    rw [read_store_whole _ _ zero2]
    simp only [View.readAt_eq_ld, harg2.read_unread, harg3.read_unread, harg5.read_unread, View.ld_unit_zero (S := S512x64) zero2, View.ld_unit_zero (S := S1x1) zero2, View.readCov_unit_zero (S := S1x1) arg5.view zero2]
  iexists _; isplitr; swap; · iexact H5
  ipureintro
  sl_unfold_run_names
  rw [read_store_whole _ _ zero2]
  simp only [View.readAt_eq_ld, harg2.read_unread, harg3.read_unread, harg5.read_unread, View.ld_unit_zero (S := S512x64) zero2, View.ld_unit_zero (S := S1x1) zero2]

end Cert.KernelIdeal.Body1

end
-- ==== Proof.IRegion1.lean ====
/-
  Region 1 (the second pallas_call) as a pipeline, at any float instance and any contents `V` of the buffers at its entry:
  the two input windows' blocks, what the one-word accumulator holds after each grid point, the proof data, and the
  body's obligation at every point.

  The grid has 256 points. At point `t` window 0 holds rows `512·(t / 16) …` and window 1 rows `512·(t % 16) …` of the
  SAME array; the body adds the tile's sum to the accumulator (zeroed at the first point) and at the last point copies
  it to the output's one-word buffer, which is then written back.
-/
import proofs.«112264_j73735998537818_1_alg».proof.Proof.IBody1

set_option maxRecDepth 16384

noncomputable section

namespace Cert.KernelIdeal.Region1

open Cert.KernelIdeal Cert.KernelIdeal.Gen Cert.KernelIdeal.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule: which points are first and last, where the output is idle -/

theorem N_eq : cfg1.N = 256 := N_1
theorem N_pos : 0 < cfg1.N := by rw [N_eq]; decide

/-- The first branch is taken at point 0 only; -/
theorem first_iff : ∀ t : Fin cfg1.N, isFirst (grid1.coords t) ↔ t.val = 0 :=
  (by decide +kernel : ∀ t : Fin grid1.N, isFirst (grid1.coords t) ↔ t.val = 0)
/-- the second at point 255 only. -/
theorem last_iff : ∀ t : Fin cfg1.N, isLast (grid1.coords t) ↔ t.val = 255 :=
  (by decide +kernel : ∀ t : Fin grid1.N, isLast (grid1.coords t) ↔ t.val = 255)
/-- The output window is idle (nothing stored into its buffer) and not written back at every point but the last, -/
theorem idle_out : ∀ t : Fin cfg1.N, t.val ≠ 255 → cfg1.idle 2 (grid1.coords t) = true :=
  (by decide +kernel : ∀ t : Fin grid1.N, t.val ≠ 255 → cfg1.idle 2 (grid1.coords t) = true)
theorem noflush_out : ∀ t : Fin cfg1.N, t.val ≠ 255 → (cfg1.win 2).flush t = false :=
  (by decide +kernel : ∀ t : Fin grid1.N, t.val ≠ 255 → win1_2.flush t = false)
/-- and live at the last. -/
theorem live_out : ∀ t : Fin cfg1.N, t.val = 255 → cfg1.idle 2 (grid1.coords t) = false :=
  (by decide +kernel : ∀ t : Fin grid1.N, t.val = 255 → cfg1.idle 2 (grid1.coords t) = false)

/-! ## The input windows' blocks and the accumulator -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Position `n` as a grid point (positions past the grid wrap; only `n < 256` is ever read). -/
def pt (n : ℕ) : Fin cfg1.N := ⟨n % cfg1.N, Nat.mod_lt _ N_pos⟩
theorem pt_val (t : Fin cfg1.N) : pt t.val = t := Fin.ext (Nat.mod_eq_of_lt t.isLt)

/-- The two blocks the body loads at position `n`. -/
def xb (c : Dev nD) (n : ℕ) : Vec F S512x64 .f32 := iblk V c 0 (pt n)
def yb (c : Dev nD) (n : ℕ) : Vec F S512x64 .f32 := iblk V c 1 (pt n)
theorem xb_val (c : Dev nD) (t : Fin cfg1.N) : xb V c t.val = iblk V c 0 t := by unfold xb; rw [pt_val]
theorem yb_val (c : Dev nD) (t : Fin cfg1.N) : yb V c t.val = iblk V c 1 t := by unfold yb; rw [pt_val]

/-- What the accumulator holds after position `n`: the body's stored value of the two blocks there and of what the
    accumulator held — zeros at the first position, else what the position before left. -/
def acc (c : Dev nD) : ℕ → Vec F S1x1 .f32
  | 0 => k1_pay2 (xb V c 0) (yb V c 0) (k1_pay1 (F := F))
  | n + 1 => k1_pay2 (xb V c (n + 1)) (yb V c (n + 1)) (acc c n)

/-! ## The invariant between points and the proof data -/

/-- The accumulator's buffer. -/
abbrev scM : Memref sig .tc .vmem S1x1 .f32 := Memref.whole cc1_scratch0

/-- What the region holds of the scoped buffers it does not stage, once the accumulator is taken out. -/
abbrev restOf (c : Dev nD) : sProp 𝕄 :=
  iprop(iprop(∃ d, owns (c : Thread nD τ) scM fullShare d) -∗ Pipeline.scopedRest (Ix := Unit) (Name := ℕ) (U := UR sig nD τ) (Lvl := ℕ) (Val := Elt F) spec1 c)

/-- Before position `n`: the accumulator at anything before the first point, afterwards at what the point before
    left; beside it the other scoped buffers, untouched. -/
def PhiS (c : Dev nD) : ℕ → sProp 𝕄
  | 0 => iprop(iprop(∃ d, owns (c : Thread nD τ) scM fullShare d) ∗ restOf c)
  | n + 1 => iprop(owns (c : Thread nD τ) scM fullShare (acc V c n) ∗ restOf c)

/-- The proof data on core `c`: the arrays as found; each input's buffer left at its block, the output's at the
    accumulator's value; the two input windows hold the two halves of the one array's share; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => acc V c t.val
  Φ t := PhiS V c t.val
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = acc V c t.val := by dsimp only [dat]

/-- Each input's current buffer holds its block at every point, fetched there or not: unfetched, the block index has
    not moved and the body left the block in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem PhiS_zero (c : Dev nD) : PhiS V c 0 = iprop(iprop(∃ d, owns (c : Thread nD τ) scM fullShare d) ∗ restOf c) := rfl
theorem PhiS_succ (c : Dev nD) (n : ℕ) : PhiS V c (n + 1) = iprop(owns (c : Thread nD τ) scM fullShare (acc V c n) ∗ restOf c) := rfl

theorem Phi_castSucc (c : Dev nD) (t : Fin cfg1.N) : (dat V c).Φ t.castSucc = PhiS V c t.val := by
  dsimp only [dat]; simp only [Fin.coe_castSucc]
theorem Phi_succ (c : Dev nD) (t : Fin cfg1.N) : (dat V c).Φ t.succ = PhiS V c (t.val + 1) := rfl

theorem leaves_0 (c : Dev nD) (t : Fin cfg1.N) :
    (dat V c).leavesExact 0 t = owns (c : Thread nD τ) (st1_0 t) fullShare (iblk V c 0 t) := by
  unfold Dat.leavesExact; rw [show cfg1.idle 0 (cfg1.grid.coords t) = false from rfl, after_0]
theorem leaves_1 (c : Dev nD) (t : Fin cfg1.N) :
    (dat V c).leavesExact 1 t = owns (c : Thread nD τ) (st1_1 t) fullShare (iblk V c 1 t) := by
  unfold Dat.leavesExact; rw [show cfg1.idle 1 (cfg1.grid.coords t) = false from rfl, after_1]

set_option maxHeartbeats 1600000 in
/-- The body at any point, by the point's case. The accumulator comes out of the invariant at what the point before left
    (at anything at the first point) and goes back at this point's value; the other scoped buffers and the core's dues pass
    through; each input's buffer holds its block before and after; the output's buffer is handed back untouched except at
    the last point, where it ends holding the accumulator's value. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl, Phi_castSucc, Phi_succ, leaves_0, leaves_1]
  have hN : t.val < 256 := lt_of_lt_of_eq t.isLt N_eq
  by_cases h0 : t.val = 0
  · -- the first point
    have hl : t.val ≠ 255 := by omega
    rw [Dat.leavesExact_idle (dat V c) 2 t (idle_out t hl) (noflush_out t hl), PhiS_succ V c t.val]
    rw [show acc V c t.val = k1_pay2 (iblk V c 0 t) (iblk V c 1 t) (k1_pay1 (F := F)) from by
      rw [← xb_val V c t, ← yb_val V c t, h0]; rfl]
    rw [show PhiS V c t.val = PhiS V c 0 from by rw [h0], PhiS_zero]
    iintro ⟨⟨⟨%a, HS⟩, Hw⟩, Ho, ⟨%d0, H0⟩, ⟨%d1, H1⟩, ⟨%d2, H2⟩⟩
    iapply (run_first c (grid1.coords t) _ _ _ _ _ _ _ _ ((first_iff t).mpr h0) (fun h => hl ((last_iff t).mp h)) (iblk V c 0 t) (iblk V c 1 t) a _ Set.univ _)
    isplitl [H0]; · iexact H0
    isplitl [H1]; · iexact H1
    isplitl [H2]; · iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexists _; iexact H2
  · obtain ⟨n, hn⟩ : ∃ n, t.val = n + 1 := ⟨t.val - 1, by omega⟩
    have hacc : acc V c t.val = k1_pay2 (iblk V c 0 t) (iblk V c 1 t) (acc V c n) := by
      rw [← xb_val V c t, ← yb_val V c t, hn]; rfl
    by_cases hl : t.val = 255
    · -- the last point
      rw [show (dat V c).leavesExact 2 t = owns (c : Thread nD τ) (st1_2 t) fullShare ((dat V c).after 2 t) from by
        unfold Dat.leavesExact; rw [live_out t hl], after_2, PhiS_succ V c t.val, hacc]
      rw [show PhiS V c t.val = PhiS V c (n + 1) from by rw [hn], PhiS_succ]
      iintro ⟨⟨HS, Hw⟩, Ho, ⟨%d0, H0⟩, ⟨%d1, H1⟩, ⟨%d2, H2⟩⟩
      iapply (run_last c (grid1.coords t) _ _ _ _ _ _ _ _ (fun h => h0 ((first_iff t).mp h)) ((last_iff t).mpr hl) (iblk V c 0 t) (iblk V c 1 t) (acc V c n) _ Set.univ _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexact H2
    · -- a middle point
      rw [Dat.leavesExact_idle (dat V c) 2 t (idle_out t hl) (noflush_out t hl), PhiS_succ V c t.val, hacc]
      rw [show PhiS V c t.val = PhiS V c (n + 1) from by rw [hn], PhiS_succ]
      iintro ⟨⟨HS, Hw⟩, Ho, ⟨%d0, H0⟩, ⟨%d1, H1⟩, ⟨%d2, H2⟩⟩
      iapply (run_mid c (grid1.coords t) _ _ _ _ _ _ _ _ (fun h => h0 ((first_iff t).mp h)) (fun h => hl ((last_iff t).mp h)) (iblk V c 0 t) (iblk V c 1 t) (acc V c n) _ Set.univ _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Region1

end
-- ==== Proof.IEdge1.lean ====
/-
  Region 1's two ends. Its three windows sit on TWO arrays: both input windows read `main_v5`, the output window writes
  `main_v13`. On entry the core's unscoped buffers give each input window one half of `main_v5`'s share and the output window
  all of `main_v13`; on exit the halves, which still hold what they held, are joined again and `main_v13` holds what the last
  point wrote back.
-/
import proofs.«112264_j73735998537818_1_alg».proof.Proof.IRegion1
import Idealize.ShloMosaic.Lib.Pipeline.Regions
import Idealize.ShloMosaic.Lib.Pipeline.RegionsLoop

set_option maxRecDepth 16384

noncomputable section

namespace Cert.KernelIdeal.Region1

open Cert.KernelIdeal Cert.KernelIdeal.Gen Cert.KernelIdeal.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's array is never written: after any number of points it holds what it held. -/
theorem arr_in0 (c : Dev nD) (n : ℕ) : (dat V c).arrAt 0 n = V c main_v5 := ((dat V c).arrAt_in 0 rfl n).trans (A_eq V c 0)
theorem arr_in1 (c : Dev nD) (n : ℕ) : (dat V c).arrAt 1 n = V c main_v5 := ((dat V c).arrAt_in 1 rfl n).trans (A_eq V c 1)
theorem arr_out_entry (c : Dev nD) : (dat V c).arrAt 2 0 = V c main_v13 := A_eq V c 2

theorem share_0 (c : Dev nD) : (dat V c).share 0 = fullShare.left := if_neg (by decide)
theorem share_1 (c : Dev nD) : (dat V c).share 1 = fullShare.right := if_neg (by decide)
theorem share_2 (c : Dev nD) : (dat V c).share 2 = fullShare := if_pos (by decide)

set_option backward.isDefEq.respectTransparency.types false in
/-- ENTRY: the unscoped buffers at `V` are the region's arrays at their entry contents — `main_v5` dealt in halves to the
    two input windows — and the unscoped buffers that are no array of the region. -/
theorem entry_split (c : Dev nD) :
    (unscopedBufs c (V c) : sProp 𝕄) ⊢ iprop((dat V c).arrays ((dat V c).arrAt · 0) ∗ Pipeline.unscopedRest spec1 c (V c)) := by
  rw [Pipeline.unscopedBufs_split₀ cfgs (1 : Fin 2) winFacts₀1.arr_unscoped c (V c)]
  refine sep_mono ?_ .rfl
  unfold Pipeline.arrBufs Dat.arrays
  rw [bigSep_eq_bigSepL_of_eq [main_v5, main_v13] (by decide) (by decide), bigSep_W1]
  rw [share_0, share_1, share_2, (arr_whole1 0).set_eq_univ, (arr_whole1 2).set_eq_univ]
  dsimp only
  rw [arr_in0, arr_in1, arr_out_entry]
  show iprop((((c : Thread nD τ).loc main_v5) ↦{fullShare} V c main_v5) ∗ (((c : Thread nD τ).loc main_v13) ↦{fullShare} V c main_v13)) ⊢ _
  iintro ⟨H2, H11⟩
  have hs : ((((c : Thread nD τ).loc main_v5) ↦{fullShare} V c main_v5) : sProp 𝕄)
      ⊢ iprop((((c : Thread nD τ).loc main_v5) ↦{fullShare.left} V c main_v5) ∗ (((c : Thread nD τ).loc main_v5) ↦{fullShare.right} V c main_v5)) :=
    (pointsTo_share (PosShare.mem_left_op_right fullShare)).1
  ihave Hs := hs $$ H2
  icases Hs with ⟨Hl, Hr⟩
  isplitl [Hl]; · iexact Hl
  isplitl [Hr]; · iexact Hr
  iexact H11

set_option backward.isDefEq.respectTransparency.types false in
/-- EXIT: the region's arrays at their final contents — the two halves of `main_v5` as found, `main_v13` at what was written
    back — and the unscoped rest at `V` are the core's unscoped buffers at any `V'` that has `main_v13` at that and agrees
    with `V` elsewhere. -/
theorem exit_join (c : Dev nD) (V' : (b : Ref sig .tc) → Buf (Elt F) ((c : Thread nD τ).loc b))
    (hout : V' main_v13 = (dat V c).arrAt 2 cfg1.N) (hrest : ∀ b, b ≠ main_v13 → V' b = V c b) :
    iprop((dat V c).arrays ((dat V c).arrAt · cfg1.N) ∗ Pipeline.unscopedRest spec1 c (V c)) ⊢ (unscopedBufs c V' : sProp 𝕄) := by
  rw [Pipeline.unscopedBufs_split₀ cfgs (1 : Fin 2) winFacts₀1.arr_unscoped c V']
  refine sep_mono ?_ (Entails.of_eq ?_)
  · unfold Pipeline.arrBufs Dat.arrays
    rw [bigSep_eq_bigSepL_of_eq [main_v5, main_v13] (by decide) (by decide), bigSep_W1]
    rw [share_0, share_1, share_2, (arr_whole1 0).set_eq_univ, (arr_whole1 2).set_eq_univ]
    dsimp only
    rw [arr_in0, arr_in1]
    show _ ⊢ iprop((((c : Thread nD τ).loc main_v5) ↦{fullShare} V' main_v5) ∗ (((c : Thread nD τ).loc main_v13) ↦{fullShare} V' main_v13))
    rw [hrest main_v5 (by decide), hout]
    iintro ⟨Hl, Hr, H11⟩
    isplitl [Hl Hr]
    · have hj : iprop((((c : Thread nD τ).loc main_v5) ↦{fullShare.left} V c main_v5) ∗ (((c : Thread nD τ).loc main_v5) ↦{fullShare.right} V c main_v5))
          ⊢ ((((c : Thread nD τ).loc main_v5) ↦{fullShare} V c main_v5) : sProp 𝕄) :=
        (pointsTo_share (PosShare.mem_left_op_right fullShare)).2
      iapply hj
      isplitl [Hl]; · iexact Hl
      iexact Hr
    iexact H11
  · unfold Pipeline.unscopedRest
    exact bigSep_congr fun b hb => by
      rw [hrest b (fun e => (Finset.mem_sdiff.mp hb).2 (e ▸ Finset.mem_image.mpr ⟨2, Finset.mem_univ _, rfl⟩))]

/-! ## The accumulator's buffer in and out of the scoped rest -/

/-- The scoped buffers the region does not stage are the accumulator's, at anything, and the others. -/
theorem rest_split (c : Dev nD) :
    (Pipeline.scopedRest (Ix := Unit) (Name := ℕ) (U := UR sig nD τ) (Lvl := ℕ) (Val := Elt F) spec1 c : sProp 𝕄)
      ⊢ iprop(iprop(∃ d, owns (c : Thread nD τ) scM fullShare d) ∗ restOf c) := by
  have key : ∀ (A B : sProp 𝕄), iprop(A ∗ B) ⊢ iprop(A ∗ (A -∗ iprop(A ∗ B))) := fun A B => by
    iintro ⟨HA, HB⟩
    isplitl [HA]; · iexact HA
    iintro HA
    isplitl [HA]; · iexact HA
    iexact HB
  show _ ⊢ iprop(iprop(∃ d, owns (c : Thread nD τ) scM fullShare d)
    ∗ (iprop(∃ d, owns (c : Thread nD τ) scM fullShare d) -∗ Pipeline.scopedRest (Ix := Unit) (Name := ℕ) (U := UR sig nD τ) (Lvl := ℕ) (Val := Elt F) spec1 c))
  rw [scopedRest1_eq]
  simp only [scM, owns_whole]
  iintro ⟨H1, H2, H3, H4, H5, H6, HA⟩
  isplitl [HA]; · iexact HA
  iintro HA
  isplitl [H1]; · iexact H1
  isplitl [H2]; · iexact H2
  isplitl [H3]; · iexact H3
  isplitl [H4]; · iexact H4
  isplitl [H5]; · iexact H5
  isplitl [H6]; · iexact H6
  iexact HA

/-- And back. -/
theorem rest_join (c : Dev nD) (a : Vec F S1x1 .f32) :
    iprop(owns (c : Thread nD τ) scM fullShare a ∗ restOf c)
      ⊢ (Pipeline.scopedRest (Ix := Unit) (Name := ℕ) (U := UR sig nD τ) (Lvl := ℕ) (Val := Elt F) spec1 c : sProp 𝕄) := by
  iintro ⟨H0, Hw⟩
  iapply Hw
  iexists _; iexact H0

end Cert.KernelIdeal.Region1

end
-- ==== Proof.IRun.lean ====
/-
  @main of `KernelIdeal` as segments: host stretches and the two kernel regions, at any float instance.

  Between two items core `c` holds every unscoped buffer whole at a known valuation: the launch contents, then each host
  stretch applied, then — after a region — the region's one-word result array at what the region's last point wrote back
  (`o5` after the first region, `o7` after the second). Each region is entered by splitting its two arrays out of the
  unscoped buffers (the array both input windows read dealt in halves) and left by joining them again.
-/
import proofs.«112264_j73735998537818_1_alg».proof.Proof.IEdge0
import proofs.«112264_j73735998537818_1_alg».proof.Proof.IEdge1
import proofs.«112264_j73735998537818_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' ends -/

/-- What the first region finds in each buffer. -/
abbrev Vin0 : (c : Dev nD) → (b : Ref sig .tc) → Buf (Elt F) ((c : Thread nD τ).loc b) := fun c b => V4 m c b
/-- What it leaves in its result array: the write-back of its last point. -/
def o5 (c : Dev nD) : Buf (Elt F) ((c : Thread nD τ).loc main_v11) := (Region0.dat (Vin0 m) c).arrAt 2 cfg0.N
/-- The buffers after the first region, then after the reshape that follows it. -/
abbrev W5 (c : Dev nD) : Valuation τ sig (Elt F) := Function.update (V4 m c) main_v11 (o5 m c)
abbrev W6 (c : Dev nD) : Valuation τ sig (Elt F) := StableHlo.after hostOps1 (W5 m c)
/-- What the second region finds, and what it leaves in its result array. -/
abbrev Vin1 : (c : Dev nD) → (b : Ref sig .tc) → Buf (Elt F) ((c : Thread nD τ).loc b) := fun c b => W6 m c b
def o7 (c : Dev nD) : Buf (Elt F) ((c : Thread nD τ).loc main_v13) := (Region1.dat (Vin1 m) c).arrAt 2 cfg1.N

/-- The regions' results, as the family the generated valuations `V5`, `V7` read. -/
def outs : Outs (F := F) := fun _ r c =>
  if h : r = main_v11 then h ▸ o5 m c else if h : r = main_v13 then h ▸ o7 m c else V4 m c r

theorem outs_5 (c : Dev nD) : outs m 5 main_v11 c = o5 m c := by unfold outs; rw [dif_pos rfl]
theorem outs_7 (c : Dev nD) : outs m 7 main_v13 c = o7 m c := by unfold outs; rw [dif_neg (by decide), dif_pos rfl]
theorem V5_eq (c : Dev nD) : V5 m (outs m) c = W5 m c := by
  show Function.update (V4 m c) main_v11 (outs m 5 main_v11 c) = _; rw [outs_5]
theorem V6_eq (c : Dev nD) : V6 m (outs m) c = W6 m c := by
  show StableHlo.after hostOps1 (V5 m (outs m) c) = _; rw [V5_eq]

/-! ## The proof data family and what rides beside the buffers -/

def pdats : (p : Fin 2) → (c : Dev nD) → Dat τ (Elt F) Unit ℕ (UR sig nD τ) ℕ (Pipeline.pin (pcfgs (F := F)) adm p) c
  | ⟨0, _⟩ => fun c => Region0.dat (Vin0 m) c
  | ⟨1, _⟩ => fun c => Region1.dat (Vin1 m) c

abbrev L : GSem nD τ sig → Finset Unit := fun _ => ∅
abbrev lv : GSem nD τ sig → Unit → ℕ := fun _ _ => 0
/-- Beside the buffers: the core owing nothing. -/
abbrev R (c : Dev nD) : sProp 𝕄 := iprop(∃ W, owes (c : Thread nD τ) (0 : CellTallies nD τ sig Unit) W)

/-! ## The regions as segments -/

set_option backward.isDefEq.respectTransparency.types false in
def reg0 : RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (Region0.body_obligation (Vin0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(emp)
  Y c := iprop(emp)
  Z c := Pipeline.unscopedRest (Ix := Unit) (Name := ℕ) (U := UR sig nD τ) (Lvl := ℕ) spec0 c (Vin0 m c)
  hentry c := by
    rw [Pipeline.ownSems0_none]
    have hsplit := Region0.entry_split (Vin0 m) c
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Region0.PhiS (Vin0 m) c 0 from rfl, Region0.PhiS_zero]
    iintro ⟨-, -, Hr⟩
    iapply (Region0.rest_split c)
    iexact Hr
  hout c := by
    rw [Pipeline.ownSems0_none, show (pdats m 0 c).Φ (Fin.last _) = Region0.PhiS (Vin0 m) c (255 + 1) from rfl, Region0.PhiS_succ]
    iintro H
    isplitr; · iempintro
    isplitr; · iempintro
    iapply (Region0.rest_join c _)
    iexact H
  hexit c := by
    have hjoin := Region0.exit_join (Vin0 m) c (fun b => V5 m (outs m) c b)
      (by show Function.update (V4 m c) main_v11 (outs m 5 main_v11 c) main_v11 = _; rw [Function.update_self, outs_5]; rfl)
      (fun b hb => by show Function.update (V4 m c) main_v11 (outs m 5 main_v11 c) b = _; rw [Function.update_of_ne (StableHlo.devRef_ne_of_ne hb)])
    rw [Pipeline.unscopedBufs_held] at hjoin
    iintro ⟨Ha, HO, -, Hrest⟩
    imodintro
    isplitl [Ha Hrest]
    · iapply hjoin
      isplitl [Ha]; · iexact Ha
      iexact Hrest
    unfold Pipeline.Dat.owesAt Pipeline.owesWithin
    icases HO with ⟨%W, -, HO⟩; iexists W; iexact HO

set_option backward.isDefEq.respectTransparency.types false in
def reg1 : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Region1.body_obligation (Vin1 m) c).loose
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(emp)
  Y c := iprop(emp)
  Z c := Pipeline.unscopedRest (Ix := Unit) (Name := ℕ) (U := UR sig nD τ) (Lvl := ℕ) spec1 c (Vin1 m c)
  hentry c := by
    rw [Pipeline.ownSems0_none, V6_eq]
    have hsplit := Region1.entry_split (Vin1 m) c
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Region1.PhiS (Vin1 m) c 0 from rfl, Region1.PhiS_zero]
    iintro ⟨-, -, Hr⟩
    iapply (Region1.rest_split c)
    iexact Hr
  hout c := by
    rw [Pipeline.ownSems0_none, show (pdats m 1 c).Φ (Fin.last _) = Region1.PhiS (Vin1 m) c (255 + 1) from rfl, Region1.PhiS_succ]
    iintro H
    isplitr; · iempintro
    isplitr; · iempintro
    iapply (Region1.rest_join c _)
    iexact H
  hexit c := by
    have hjoin := Region1.exit_join (Vin1 m) c (fun b => V7 m (outs m) c b)
      (by show Function.update (V6 m (outs m) c) main_v13 (outs m 7 main_v13 c) main_v13 = _; rw [Function.update_self, outs_7]; rfl)
      (fun b hb => by show Function.update (V6 m (outs m) c) main_v13 (outs m 7 main_v13 c) b = _; rw [Function.update_of_ne (StableHlo.devRef_ne_of_ne hb), V6_eq])
    rw [Pipeline.unscopedBufs_held] at hjoin
    iintro ⟨Ha, HO, -, Hrest⟩
    imodintro
    isplitl [Ha Hrest]
    · iapply hjoin
      isplitl [Ha]; · iexact Ha
      iexact Hrest
    unfold Pipeline.Dat.owesAt Pipeline.owesWithin
    icases HO with ⟨%W, -, HO⟩; iexists W; iexact HO

/-! ## The run -/

/-- The launch element: the pipeline library's, at every pipeline's staging cells. -/
abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Of what the launch deals a core, the certificate keeps the core's dues (none). -/
theorem core_rest (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ R c := by
  iintro ⟨-, HO, -, -, -⟩
  iexists ∅
  iexact HO

set_option backward.isDefEq.respectTransparency.types false in
/-- THE FRAME: every weakly fair execution of @main terminates, nothing faulting, each argument array ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond (F := F) m emb₁ () Variants.none L lv (fun _ _ => rfl) ρ (outs m) (pdats m) 0 (fun _ => iprop(emp)) u₀ hu₀
    (fun _ c => R c)
    (by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄)
          ⊢ bigSep Finset.univ fun c : Dev nD => R c :=
        bigSep_mono fun c _ => core_rest ρ c
      iintro ⟨H, -⟩; imodintro
      iapply hmono
      iexact H)
    (fun c => .rfl)
    (reg0 m) (fun c => .rfl) (fun c => .rfl)
    (reg1 m) (fun c => .rfl) (fun c => .rfl)

/-! ## The run with the result named -/

set_option backward.isDefEq.respectTransparency.types false in
/-- Every weakly fair execution of @main terminates, nothing faulting; the result buffer ends at the last valuation's
    contents and each argument array as launched. The launch is the library's theorem for @main as a list of segments;
    the end reads each buffer off the last thread state. -/
theorem run_vals : θ_run defs (onTc (τ := τ) (main (F := F))) ⟨m, fun _ => 0, ρ⟩ (fun r => ∀ c : Dev nD,
      r.2.mem ((c.tc : Thread nD τ).loc main_v26) = V8 m (outs m) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m))
    (fun c Q => by
      rewrite [main_chain c, Seg.run_eq_chain,
        show (segs m (outs m) Variants.none L lv (fun _ c => R c) () (pdats m) (reg0 m) (reg1 m) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ R c))
    (Tₙ := fun c => StableHlo.held (c : Thread nD τ) (Pipeline.ucRefs τ sig) (V8 m (outs m) c))
    (hch := fun c => ⟨.rfl, .rfl, .rfl, .rfl, .rfl, .rfl, .rfl, .rfl, sep_mono .rfl .rfl⟩)
    (hinit := ?_)
    (QY := fun c s => s.mem ((c.tc : Thread nD τ).loc main_v26) = V8 m (outs m) c main_v26
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      exact ⟨h (Proc.devRef .tc main_v26) (Finset.mem_filter.mpr ⟨StableHlo.devRef_mem_tcRefs main_v26, by decide⟩),
        (h (Proc.devRef .tc main_arg0) (Finset.mem_filter.mpr ⟨StableHlo.devRef_mem_tcRefs main_arg0, by decide⟩)).trans (V8_main_arg0 m (outs m) c),
        (h (Proc.devRef .tc main_arg1) (Finset.mem_filter.mpr ⟨StableHlo.devRef_mem_tcRefs main_arg1, by decide⟩)).trans (V8_main_arg1 m (outs m) c)⟩
    · iexact HSI

end Cert.KernelIdeal.Run

end
-- ==== Proof.PairSum.lean ====
/-
  The uniformity sum, as mathematics on the extended reals.

  For a matrix `u` of 8192 rows of 64 entries, the quantity both programs compute is
  `S(u) = ∑ i j, w(⟨u i, u j⟩)` over all 8192² ordered pairs of rows, with `⟨·,·⟩` the inner product of two rows
  (64 terms) and `w(g) = exp(-2 · max(2 - 2·g, 0))`. One program takes the sum in one sweep; the other cuts the rows
  into 16 blocks of 512, sums `w` over the 512 × 512 pairs of each of the 256 ordered pairs of blocks (a TILE), and adds
  the 256 tile sums one after the other. Addition on the extended reals is commutative and associative, so the two
  agree, for every `u` (no finiteness is used).
-/
import Idealize.ShloMosaic.PureOps.Ideal
import Idealize.ShloMosaic.Lib.ValueIdx

noncomputable section

namespace Cert.PairSum

open Idealize.ShloMosaic Idealize.ShloMosaic.ValueIdx

/-- The weight of a pair of rows with inner product `g`: `exp(-2 · max(2 - 2·g, 0))`; the three constants are the
    f32 words of `2`, `0` and `-2`. -/
def pairW (g : Ideal .f32) : Ideal .f32 :=
  FloatOps.exp (F := Ideal) (FloatOps.mulf (F := Ideal) (FloatOps.ofBits (F := Ideal) .f32 0xC0000000#32)
    (FloatOps.maximumf (F := Ideal)
      (FloatOps.subf (F := Ideal) (FloatOps.ofBits (F := Ideal) .f32 0x40000000#32)
        (FloatOps.mulf (F := Ideal) (FloatOps.ofBits (F := Ideal) .f32 0x40000000#32) g))
      (FloatOps.ofBits (F := Ideal) .f32 0x00000000#32)))

/-- The inner product of row `r` of `x` with row `c` of `y` (two blocks of 512 rows of 64 entries). -/
def gram (x y : (⟨2, ![512, 64]⟩ : Shape).Idx → EReal) (r c : Fin 512) : EReal :=
  ∑ k : Fin 64, x (ix2 r k) * y (ix2 c k)

/-- One tile: the weights of the 512 × 512 pairs (row of `x`, row of `y`), summed row by row. -/
def tile (x y : (⟨2, ![512, 64]⟩ : Shape).Idx → EReal) : EReal :=
  ∑ r : Fin 512, ∑ c : Fin 512, pairW (gram x y r c)

/-- Rows `512·b … 512·b + 511` of `u`, as a block of 512 rows. -/
def rowBlock (u : (⟨2, ![8192, 64]⟩ : Shape).Idx → EReal) (b : Fin 16) : (⟨2, ![512, 64]⟩ : Shape).Idx → EReal :=
  fun y => u (ix2 (⟨b.val * 512 + (y 0).val, by have := (y 0).isLt; have := b.isLt; change (y 0).val < 512 at *; omega⟩ : Fin 8192)
    (⟨(y 1).val, (y 1).isLt⟩ : Fin 64))

/-- The whole sum: the weights of all 8192² ordered pairs of rows of `u`. -/
def total (u : (⟨2, ![8192, 64]⟩ : Shape).Idx → EReal) : EReal :=
  ∑ i : Fin 8192, ∑ j : Fin 8192, pairW (∑ k : Fin 64, u (ix2 i k) * u (ix2 j k))

/-- The tile of grid point `t` (row-major over a 16 × 16 grid): block `t / 16` against block `t % 16`. -/
def tileAt (u : (⟨2, ![8192, 64]⟩ : Shape).Idx → EReal) (t : Fin 256) : EReal :=
  tile (rowBlock u ⟨t.val / 16, by have := t.isLt; omega⟩) (rowBlock u ⟨t.val % 16, by omega⟩)

end Cert.PairSum

end
-- ==== Proof.TileValue.lean ====
/-
  The value the kernel body stores, at the exact (extended-real) instance.

  The body takes two blocks `x`, `y` of 512 rows of 64 entries and the running total `a` (one number). It forms the
  512 × 512 matrix of inner products `g r c = ∑ k, x r k · y c k` (the second block transposed, then a contraction over
  the 64 entries), applies the weight `w(g) = exp(-2 · max(2 - 2 g, 0))` to every entry, sums every row, sums the 512
  row sums, and adds the result to `a`. At the exact instance the casts to the narrower format are the identity and the
  reductions are plain finite sums, so the stored number is `a + ∑ r, ∑ c, w(g r c)`: `a` plus the tile of `x`, `y`.
-/
import proofs.«112264_j73735998537818_1_alg».proof.Proof.Gen.KernelIdeal.Skeleton
import proofs.«112264_j73735998537818_1_alg».proof.Proof.PairSum
import Idealize.ShloMosaic.PureOps.Ideal.Laws
import Idealize.ShloMosaic.Lib.ValueLayout
import Idealize.ShloMosaic.Lib.Pipeline.Value

noncomputable section

namespace Cert.KernelIdeal.TileValue

open Idealize.ShloMosaic Idealize.ShloMosaic.ValueIdx
open Cert.KernelIdeal Cert.KernelIdeal.Gen

/-! ## The contraction at an index -/

/-- The left operand's row coordinate is the output's row. -/
theorem lhs_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl
/-- The left operand's column coordinate is the contraction coordinate. -/
theorem lhs_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
/-- The right operand's row coordinate is the contraction coordinate. -/
theorem rhs_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
/-- The right operand's column coordinate is the output's column. -/
theorem rhs_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

/-- The contraction of `X` with the transpose of `Y`, into a zero accumulator, read at `(r, c)`: the inner product of
    row `r` of `X` with row `c` of `Y`. -/
theorem gram_apply (X Y : FVec Ideal S512x64 .bf16) (r c : Fin 512) :
    matmul dot_S512x64_S64x512_S512x512_1_0_0_1_n_n none X (transpose S64x512 [1, 0] Y transposes_S512x64_p1_0_S64x512)
        (constant (F := Ideal) S512x512 .f32 0x00000000#32) (ix2 r c)
      = ∑ k : Fin 64, X (ix2 r k) * Y (ix2 c k) := by
  refine (Ideal.matmul_constant_zero_apply dot_S512x64_S64x512_S512x512_1_0_0_1_n_n none X _ (ix2 r c)).trans ?_
  rw [← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 r c) ((contrEquiv1 dot_S512x64_S64x512_S512x512_1_0_0_1_n_n 64 rfl rfl).symm k) = ix2 r k :=
    funext fun a => Fin.ext (by
      match a with
      | ⟨0, _⟩ => exact lhs_0 _ _
      | ⟨1, _⟩ => exact (lhs_1 _ _).trans hk)
  have er : dot_S512x64_S64x512_S512x512_1_0_0_1_n_n.rhsIdx (ix2 r c) ((contrEquiv1 dot_S512x64_S64x512_S512x512_1_0_0_1_n_n 64 rfl rfl).symm k) = ix2 k c :=
    funext fun a => Fin.ext (by
      match a with
      | ⟨0, _⟩ => exact (rhs_0 _ _).trans hk
      | ⟨1, _⟩ => exact rhs_1 _ _)
  rw [el, er]
  exact congrArg (X (ix2 r k) * ·) (transpose_ix2_apply Y transposes_S512x64_p1_0_S64x512 k c)

/-! ## The two sums -/

/-- The row sums: the reduction over the second axis, read at `r`, is the sum of row `r`. -/
theorem rowSum_apply (w : FVec Ideal S512x512 .f32) (h : S512x512.Reduces [1] S512) (hφ : FKind.Formats .f32)
    (hacc : (0x00000000#32 : BitVec 32) = FKind.add.neutral .f32 hφ) (r : Fin 512) :
    multiReduction .add [1] S512 w 0x00000000#32 h hφ hacc (ix1 r) = ∑ c : Fin 512, w (ix2 r c) := by
  refine (Ideal.multiReduction_add_single w 0x00000000#32 h hφ hacc (ix1 r)).trans ?_
  refine Finset.sum_congr rfl fun c _ => congrArg w ?_
  funext a
  match a with
  | ⟨0, _⟩ => exact Fin.ext rfl
  | ⟨1, _⟩ => exact Fin.ext rfl

/-- The column of row sums: a vector of 512 entries cast to a 512 × 1 matrix reads, at `(r, u)`, entry `r`. -/
theorem column_apply {α : Type} (v : S512.Idx → α) (h : S512.ShapeCasts S512x1) (r : Fin 512) (u : Fin 1) :
    shapeCast S512x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The sum of the column: the reduction over the first axis of a 512 × 1 matrix, read at its one index, is the sum of
    the 512 entries. -/
theorem colSum_apply (w : FVec Ideal S512x1 .f32) (h : S512x1.Reduces [0] S1) (hφ : FKind.Formats .f32)
    (hacc : (0x00000000#32 : BitVec 32) = FKind.add.neutral .f32 hφ) (u : Fin 1) :
    multiReduction .add [0] S1 w 0x00000000#32 h hφ hacc (ix1 u) = ∑ r : Fin 512, w (ix2 r u) := by
  refine (Ideal.multiReduction_add_single w 0x00000000#32 h hφ hacc (ix1 u)).trans ?_
  refine Finset.sum_congr rfl fun r _ => congrArg w ?_
  funext a
  match a with
  | ⟨0, _⟩ => exact Fin.ext rfl
  | ⟨1, _⟩ => exact Fin.ext rfl

/-- Row sums, then their sum, with the two casts that keep the reduced axes as unit axes: read at the one index of the
    1 × 1 result, the sum of all 512 × 512 entries. -/
theorem total_apply (w : FVec Ideal S512x512 .f32) (u0 u1 : Fin 1) :
    shapeCast S1x1
        (multiReduction .add [0] S1
          (shapeCast S512x1 (multiReduction .add [1] S512 w 0x00000000#32 reduces_S512x512_S512 (.inl rfl) rfl)
            shapeCasts_S512_S512x1)
          0x00000000#32 reduces_S512x1_S1 (.inl rfl) rfl)
        shapeCasts_S1_S1x1 (ix2 u0 u1)
      = ∑ r : Fin 512, ∑ c : Fin 512, w (ix2 r c) := by
  refine (shapeCast_a_1a_apply _ shapeCasts_S1_S1x1 u0 u1).trans ?_
  refine (colSum_apply _ reduces_S512x1_S1 _ _ u1).trans ?_
  refine Finset.sum_congr rfl fun r _ => ?_
  refine (column_apply _ shapeCasts_S512_S512x1 r u1).trans ?_
  exact rowSum_apply w reduces_S512x512_S512 _ _ r

/-! ## The stored values -/

/-- At the exact instance the cast to the narrower format (after a cast to the same shape) changes nothing. -/
theorem narrow_apply (z : Vec Ideal S512x64 .f32) (i : S512x64.Idx) :
    (truncf .bf16 (shapeCast S512x64 z shapeCasts_S512x64_S512x64) bitsLt_bf16_f32 : FVec Ideal S512x64 .bf16) i = z i :=
  shapeCast_apply z shapeCasts_S512x64_S512x64 i i rfl

/-- The first store (at the first grid point only) writes zero. -/
theorem pay1_eq (j : S1x1.Idx) : k0_pay1 (F := Ideal) j = 0 := by
  unfold k0_pay1
  refine (shapeCast_apply _ shapeCasts_S1x1_S1x1 j j rfl).trans ?_
  exact Ideal.ofBits_zero_f32

/-- The second store writes the running total plus the tile of the two blocks. -/
theorem pay2_eq (x y : Vec Ideal S512x64 .f32) (a : Vec Ideal S1x1 .f32) (j : S1x1.Idx) :
    k0_pay2 (F := Ideal) x y a j = a j + Cert.PairSum.tile x y := by
  obtain ⟨u0, u1, rfl⟩ : ∃ u0 u1 : Fin 1, j = ix2 u0 u1 := ⟨j 0, j 1, eq_ix2 j⟩
  unfold k0_pay2
  refine (shapeCast_apply _ shapeCasts_S1x1_S1x1 (ix2 u0 u1) (ix2 u0 u1) rfl).trans ?_
  refine congrArg (a (ix2 u0 u1) + ·) ?_
  refine (total_apply _ u0 u1).trans ?_
  unfold Cert.PairSum.tile
  refine Finset.sum_congr rfl fun r _ => Finset.sum_congr rfl fun c _ => ?_
  refine congrArg Cert.PairSum.pairW ?_
  refine (gram_apply _ _ r c).trans ?_
  unfold Cert.PairSum.gram
  refine Finset.sum_congr rfl fun k _ => ?_
  exact congrArg₂ (fun p q : EReal => p * q) (narrow_apply x (ix2 r k)) (narrow_apply y (ix2 c k))

/-- The second call's copy of the first store writes zero too. -/
theorem pay1_eq' (j : S1x1.Idx) : k1_pay1 (F := Ideal) j = 0 := by
  unfold k1_pay1
  refine (shapeCast_apply _ shapeCasts_S1x1_S1x1 j j rfl).trans ?_
  exact Ideal.ofBits_zero_f32

/-- The second call's copy of the second store: the running total plus the tile of the two blocks. -/
theorem pay2_eq' (x y : Vec Ideal S512x64 .f32) (a : Vec Ideal S1x1 .f32) (j : S1x1.Idx) :
    k1_pay2 (F := Ideal) x y a j = a j + Cert.PairSum.tile x y := by
  obtain ⟨u0, u1, rfl⟩ : ∃ u0 u1 : Fin 1, j = ix2 u0 u1 := ⟨j 0, j 1, eq_ix2 j⟩
  unfold k1_pay2
  refine (shapeCast_apply _ shapeCasts_S1x1_S1x1 (ix2 u0 u1) (ix2 u0 u1) rfl).trans ?_
  refine congrArg (a (ix2 u0 u1) + ·) ?_
  refine (total_apply _ u0 u1).trans ?_
  unfold Cert.PairSum.tile
  refine Finset.sum_congr rfl fun r _ => Finset.sum_congr rfl fun c _ => ?_
  refine congrArg Cert.PairSum.pairW ?_
  refine (gram_apply _ _ r c).trans ?_
  unfold Cert.PairSum.gram
  refine Finset.sum_congr rfl fun k _ => ?_
  exact congrArg₂ (fun p q : EReal => p * q) (narrow_apply x (ix2 r k)) (narrow_apply y (ix2 c k))

end Cert.KernelIdeal.TileValue

end
-- ==== Proof.TileSum.lean ====
/-
  The 256 tile sums add up to the whole pair sum.

  Cut the 8192 rows into 16 blocks of 512: row `i = 512·b + r`. The whole sum over ordered pairs of rows `(i, j)` is
  then a sum over `(a, r, b, c)` with `i = 512·a + r`, `j = 512·b + c`; a tile is the part with `(a, b)` fixed, and
  the grid point `t = 16·a + b` runs over all pairs `(a, b)` once. Only commutativity and associativity of the
  addition of the extended reals are used.
-/
import proofs.«112264_j73735998537818_1_alg».proof.Proof.PairSum

noncomputable section

namespace Cert.PairSum

open Idealize.ShloMosaic Idealize.ShloMosaic.ValueIdx

/-- Row `r` of block `a`, as a row of the whole matrix: `512·a + r`. -/
def blockRow (a : Fin 16) (r : Fin 512) : Fin 8192 :=
  ⟨a.val * 512 + r.val, by have := a.isLt; have := r.isLt; omega⟩

/-- A sum over the 8192 rows is the sum over the 16 blocks of the sums over each block's 512 rows. -/
theorem sum_rows {M : Type*} [AddCommMonoid M] (g : Fin 8192 → M) :
    ∑ i : Fin 8192, g i = ∑ a : Fin 16, ∑ r : Fin 512, g (blockRow a r) := by
  rw [← Fintype.sum_prod_type' (f := fun a r => g (blockRow a r))]
  refine (Fintype.sum_equiv (finProdFinEquiv (m := 16) (n := 512)) _ g (fun p => ?_)).symm
  refine congrArg g (Fin.ext ?_)
  show p.1.val * 512 + p.2.val = p.2.val + 512 * p.1.val
  omega

/-- A sum over the 256 grid points is the double sum over the 16 × 16 pairs of blocks, `t = 16·a + b`. -/
theorem sum_grid {M : Type*} [AddCommMonoid M] (g : Fin 256 → M) :
    ∑ t : Fin 256, g t = ∑ a : Fin 16, ∑ b : Fin 16,
      g ⟨a.val * 16 + b.val, by have := a.isLt; have := b.isLt; omega⟩ := by
  rw [← Fintype.sum_prod_type' (f := fun (a b : Fin 16) =>
    g ⟨a.val * 16 + b.val, by have := a.isLt; have := b.isLt; omega⟩)]
  refine (Fintype.sum_equiv (finProdFinEquiv (m := 16) (n := 16)) _ g (fun p => ?_)).symm
  refine congrArg g (Fin.ext ?_)
  show p.1.val * 16 + p.2.val = p.2.val + 16 * p.1.val
  omega

/-- The inner product of row `r` of block `a` with row `c` of block `b` is that of the two rows of the whole matrix. -/
theorem gram_rowBlock (u : (⟨2, ![8192, 64]⟩ : Shape).Idx → EReal) (a b : Fin 16) (r c : Fin 512) :
    gram (rowBlock u a) (rowBlock u b) r c
      = ∑ k : Fin 64, u (ix2 (blockRow a r) k) * u (ix2 (blockRow b c) k) := rfl

/-- The tile of blocks `a`, `b` is the part of the whole sum over the rows of `a` against the rows of `b`. -/
theorem tile_rowBlock (u : (⟨2, ![8192, 64]⟩ : Shape).Idx → EReal) (a b : Fin 16) :
    tile (rowBlock u a) (rowBlock u b)
      = ∑ r : Fin 512, ∑ c : Fin 512,
          pairW (∑ k : Fin 64, u (ix2 (blockRow a r) k) * u (ix2 (blockRow b c) k)) := rfl

/-- The grid point `16·a + b` is the tile of block `a` against block `b`. -/
theorem tileAt_grid (u : (⟨2, ![8192, 64]⟩ : Shape).Idx → EReal) (a b : Fin 16) :
    tileAt u ⟨a.val * 16 + b.val, by have := a.isLt; have := b.isLt; omega⟩
      = tile (rowBlock u a) (rowBlock u b) := by
  unfold tileAt
  have ha : (⟨(a.val * 16 + b.val) / 16, by have := a.isLt; have := b.isLt; omega⟩ : Fin 16) = a :=
    Fin.ext (by show (a.val * 16 + b.val) / 16 = a.val; have := b.isLt; omega)
  have hb : (⟨(a.val * 16 + b.val) % 16, by omega⟩ : Fin 16) = b :=
    Fin.ext (by show (a.val * 16 + b.val) % 16 = b.val; have := b.isLt; omega)
  show tile (rowBlock u ⟨(a.val * 16 + b.val) / 16, _⟩) (rowBlock u ⟨(a.val * 16 + b.val) % 16, _⟩) = _
  rw [ha, hb]

/-- THE TILES ADD UP: the 256 tile sums, added, are the sum of the weights of all 8192² ordered pairs of rows. -/
theorem tiles_sum (u : (⟨2, ![8192, 64]⟩ : Shape).Idx → EReal) :
    ∑ t : Fin 256, tileAt u t = total u := by
  rw [sum_grid (fun t => tileAt u t)]
  unfold total
  rw [sum_rows (fun i => ∑ j : Fin 8192, pairW (∑ k : Fin 64, u (ix2 i k) * u (ix2 j k)))]
  refine Finset.sum_congr rfl (fun a _ => ?_)
  -- the rows of block `a` against every row: cut the second row index into blocks too, then bring the block outside
  have hR : ∀ r : Fin 512, (∑ j : Fin 8192, pairW (∑ k : Fin 64, u (ix2 (blockRow a r) k) * u (ix2 j k)))
      = ∑ b : Fin 16, ∑ c : Fin 512, pairW (∑ k : Fin 64, u (ix2 (blockRow a r) k) * u (ix2 (blockRow b c) k)) :=
    fun r => sum_rows _
  refine Eq.trans ?_ (Finset.sum_congr rfl (fun r _ => (hR r).symm))
  rw [Finset.sum_comm]
  refine Finset.sum_congr rfl (fun b _ => ?_)
  exact (tileAt_grid u a b).trans (tile_rowBlock u a b)

end Cert.PairSum

end
-- ==== Proof.IValue0.lean ====
/-
  What the first call leaves in its output, at the exact (extended-real) instance, for any contents `V` of the buffers
  at its entry.

  Write `u` for the matrix of 8192 rows of 64 entries the call reads. At grid point `t` (of 256, row-major over a
  16 × 16 grid) the first window's block is rows `512·(t / 16) …` of `u` and the second window's rows `512·(t % 16) …`:
  the two row blocks of tile `t`. The accumulator starts from zero and every point adds its tile's sum, so after point
  `n` it holds the sum of the tiles `0 … n`, and after the last point the sum of all 256 tiles, which is the sum of the
  weights of all 8192² ordered pairs of rows. The last point's value is what the one write-back puts into the output.
-/
import proofs.«112264_j73735998537818_1_alg».proof.Proof.IRegion0
import proofs.«112264_j73735998537818_1_alg».proof.Proof.TileValue
import proofs.«112264_j73735998537818_1_alg».proof.Proof.TileSum
import Idealize.ShloMosaic.Lib.Pipeline.Value

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The matrix the call reads, as the region finds it. -/
abbrev umat (c : Dev nD) : (⟨2, ![8192, 64]⟩ : Shape).Idx → EReal := V c main_v2

/-! ## The two input blocks at a grid point are row blocks of the matrix -/

/-- The first window's block index at point `t` is `(t / 16, 0)`, -/
theorem index_0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
/-- the second window's `(t % 16, 0)`. -/
theorem index_1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)

/-- The first window's block at point `t` is row block `t / 16` of the matrix. -/
theorem blk0_eq_of (c : Dev nD) (t : Fin cfg0.N) (a : Fin 16) (ha : a.val = t.val / 16) :
    (iblk V c 0 t : S512x64.Idx → EReal) = Cert.PairSum.rowBlock (umat V c) a := by
  obtain ⟨e0, e1⟩ := index_0 t
  funext y
  unfold iblk
  rw [View.read_apply]
  show V c main_v2 (((cfg0.win 0).blk t).view.emb y)
    = V c main_v2 (ix2 (⟨a.val * 512 + (y 0).val, _⟩ : Fin 8192) (⟨(y 1).val, (y 1).isLt⟩ : Fin 64))
  refine congrArg (V c main_v2) (funext fun b => Fin.ext ?_)
  match b with
  | ⟨0, _⟩ =>
    show win0_0.index t (0 : Fin 2) * 512 + 1 * (y 0).val = a.val * 512 + (y 0).val
    rw [e0, ha]; omega
  | ⟨1, _⟩ =>
    show win0_0.index t (1 : Fin 2) * 64 + 1 * (y 1).val = (y 1).val
    rw [e1]; omega

/-- The second window's block at point `t` is row block `t % 16` of the matrix. -/
theorem blk1_eq_of (c : Dev nD) (t : Fin cfg0.N) (a : Fin 16) (ha : a.val = t.val % 16) :
    (iblk V c 1 t : S512x64.Idx → EReal) = Cert.PairSum.rowBlock (umat V c) a := by
  obtain ⟨e0, e1⟩ := index_1 t
  funext y
  unfold iblk
  rw [View.read_apply]
  show V c main_v2 (((cfg0.win 1).blk t).view.emb y)
    = V c main_v2 (ix2 (⟨a.val * 512 + (y 0).val, _⟩ : Fin 8192) (⟨(y 1).val, (y 1).isLt⟩ : Fin 64))
  refine congrArg (V c main_v2) (funext fun b => Fin.ext ?_)
  match b with
  | ⟨0, _⟩ =>
    show win0_1.index t (0 : Fin 2) * 512 + 1 * (y 0).val = a.val * 512 + (y 0).val
    rw [e0, ha]; omega
  | ⟨1, _⟩ =>
    show win0_1.index t (1 : Fin 2) * 64 + 1 * (y 1).val = (y 1).val
    rw [e1]; omega

theorem blk0_eq (c : Dev nD) (t : Fin cfg0.N) :
    (iblk V c 0 t : S512x64.Idx → EReal)
      = Cert.PairSum.rowBlock (umat V c) ⟨t.val / 16, by have := t.isLt; have := N_eq; omega⟩ :=
  blk0_eq_of V c t _ rfl
theorem blk1_eq (c : Dev nD) (t : Fin cfg0.N) :
    (iblk V c 1 t : S512x64.Idx → EReal) = Cert.PairSum.rowBlock (umat V c) ⟨t.val % 16, by omega⟩ :=
  blk1_eq_of V c t _ rfl

/-! ## The accumulator -/

/-- The tile of the two blocks loaded at position `n` is tile `n` of the matrix. -/
theorem tile_pt (c : Dev nD) (n : ℕ) :
    Cert.PairSum.tile (xb V c n) (yb V c n)
      = Cert.PairSum.tileAt (umat V c) ⟨n % 256, Nat.mod_lt _ (by decide)⟩ := by
  have hp : (pt n).val = n % 256 := by show n % cfg0.N = n % 256; rw [N_eq]
  unfold Cert.PairSum.tileAt xb yb
  rw [blk0_eq_of V c (pt n) ⟨n % 256 / 16, by omega⟩ (by rw [hp]),
    blk1_eq_of V c (pt n) ⟨n % 256 % 16, by omega⟩ (by rw [hp])]

/-- After position `n` the accumulator holds the sum of the tiles `0 … n`. -/
theorem acc_eq (c : Dev nD) (n : ℕ) (j : S1x1.Idx) :
    acc V c n j = ∑ k ∈ Finset.range (n + 1), Cert.PairSum.tileAt (umat V c) ⟨k % 256, Nat.mod_lt _ (by decide)⟩ := by
  induction n with
  | zero =>
    show k0_pay2 (xb V c 0) (yb V c 0) (k0_pay1 (F := Ideal)) j = _
    rw [TileValue.pay2_eq, TileValue.pay1_eq, zero_add, tile_pt, Finset.sum_range_one]
  | succ n ih =>
    show k0_pay2 (xb V c (n + 1)) (yb V c (n + 1)) (acc V c n) j = _
    rw [TileValue.pay2_eq, ih, tile_pt, Finset.sum_range_succ _ (n + 1)]

/-- After the last position it holds the sum of the weights of all ordered pairs of rows of the matrix. -/
theorem acc_last (c : Dev nD) (j : S1x1.Idx) : acc V c 255 j = Cert.PairSum.total (umat V c) := by
  rw [acc_eq, ← Cert.PairSum.tiles_sum]
  refine ((Fin.sum_univ_eq_sum_range (fun k => Cert.PairSum.tileAt (umat V c) ⟨k % 256, Nat.mod_lt _ (by decide)⟩) 256).symm).trans ?_
  refine Finset.sum_congr rfl fun t _ => congrArg (Cert.PairSum.tileAt (umat V c)) (Fin.ext ?_)
  exact Nat.mod_eq_of_lt t.isLt

/-! ## The output array after the call -/

/-- The output window's block index is `(0, 0)` at every point, and its block is never cut short. -/
theorem index_2 : ∀ t : Fin cfg0.N, win0_2.index t (0 : Fin 2) = 0 ∧ win0_2.index t (1 : Fin 2) = 0
    ∧ win0_2.xsize (grid0.coords t) 0 = 1 ∧ win0_2.xsize (grid0.coords t) 1 = 1 :=
  (by decide +kernel : ∀ t : Fin grid0.N, win0_2.index t (0 : Fin 2) = 0 ∧ win0_2.index t (1 : Fin 2) = 0
    ∧ win0_2.xsize (grid0.coords t) 0 = 1 ∧ win0_2.xsize (grid0.coords t) 1 = 1)

/-- What the one write-back (at the last point) writes is the total, at the block's one index. -/
theorem flushed_eq (c : Dev nD) (t : Fin cfg0.N) (hf : (cfg0.win 2).flush t = true) :
    (dat V c).flushed 2 t = ((cfg0.win 2).blk t).view.read (Elt Ideal) (fun _ => Cert.PairSum.total (umat V c)) := by
  have hN : cfg0.N = 256 := N_eq
  have ht : t.val = 255 := by have := (flush0_2 t).mp hf; have := t.isLt; omega
  funext y
  rw [View.read_apply]
  show (cfg0.win 2).cut (grid0.coords t) ((dat V c).after 2 t) y = Cert.PairSum.total (umat V c)
  rw [after_2, ht]
  exact acc_last V c _

/-- The last point's block is the whole one-entry array. -/
theorem mem_blk_last (t : Fin cfg0.N) (i : S1x1.Idx) : i ∈ ((cfg0.win 2).blk t).view.set := by
  obtain ⟨e0, e1, s0, s1⟩ := index_2 t
  have h0 : (i 0 : Nat) < 1 := (i 0).isLt
  have h1 : (i 1 : Nat) < 1 := (i 1).isLt
  show i ∈ ((View.whole main_v11).slice (win0_2.rect t)).set
  rw [View.set_slice_whole, Rect.mem_set_unit]
  intro a
  match a with
  | ⟨0, _⟩ =>
    show win0_2.index t 0 * win0_2.size 0 ≤ (i 0 : Nat)
      ∧ (i 0 : Nat) < win0_2.index t 0 * win0_2.size 0 + win0_2.xsize (grid0.coords t) 0
    rw [e0, s0]; omega
  | ⟨1, _⟩ =>
    show win0_2.index t 1 * win0_2.size 1 ≤ (i 1 : Nat)
      ∧ (i 1 : Nat) < win0_2.index t 1 * win0_2.size 1 + win0_2.xsize (grid0.coords t) 1
    rw [e1, s1]; omega

/-- THE OUTPUT after the call: the sum of the weights of all ordered pairs of rows of the matrix. -/
theorem out_eq (c : Dev nD) :
    ((dat V c).arrAt 2 cfg0.N : S1x1.Idx → EReal) = fun _ => Cert.PairSum.total (umat V c) :=
  (dat V c).arrAt_eq_of_cover 2 (fun _ => Cert.PairSum.total (umat V c)) (flushed_eq V c) fun i =>
    ⟨⟨255, by rw [N_eq]; decide⟩, (flush0_2 _).mpr rfl, mem_blk_last _ i⟩

end Cert.KernelIdeal.Region0

end
-- ==== Proof.IValue1.lean ====
/-
  What the second call leaves in its output, at the exact (extended-real) instance, for any contents `V` of the buffers
  at its entry.

  Write `u` for the matrix of 8192 rows of 64 entries the call reads. At grid point `t` (of 256, row-major over a
  16 × 16 grid) the first window's block is rows `512·(t / 16) …` of `u` and the second window's rows `512·(t % 16) …`:
  the two row blocks of tile `t`. The accumulator starts from zero and every point adds its tile's sum, so after point
  `n` it holds the sum of the tiles `0 … n`, and after the last point the sum of all 256 tiles, which is the sum of the
  weights of all 8192² ordered pairs of rows. The last point's value is what the one write-back puts into the output.
-/
import proofs.«112264_j73735998537818_1_alg».proof.Proof.IRegion1
import proofs.«112264_j73735998537818_1_alg».proof.Proof.TileValue
import proofs.«112264_j73735998537818_1_alg».proof.Proof.TileSum
import Idealize.ShloMosaic.Lib.Pipeline.Value

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The matrix the call reads, as the region finds it. -/
abbrev umat (c : Dev nD) : (⟨2, ![8192, 64]⟩ : Shape).Idx → EReal := V c main_v5

/-! ## The two input blocks at a grid point are row blocks of the matrix -/

/-- The first window's block index at point `t` is `(t / 16, 0)`, -/
theorem index_0 : ∀ t : Fin cfg1.N, win1_0.index t (0 : Fin 2) = t.val / 16 ∧ win1_0.index t (1 : Fin 2) = 0 :=
  (by decide +kernel : ∀ t : Fin grid1.N, win1_0.index t (0 : Fin 2) = t.val / 16 ∧ win1_0.index t (1 : Fin 2) = 0)
/-- the second window's `(t % 16, 0)`. -/
theorem index_1 : ∀ t : Fin cfg1.N, win1_1.index t (0 : Fin 2) = t.val % 16 ∧ win1_1.index t (1 : Fin 2) = 0 :=
  (by decide +kernel : ∀ t : Fin grid1.N, win1_1.index t (0 : Fin 2) = t.val % 16 ∧ win1_1.index t (1 : Fin 2) = 0)

/-- The first window's block at point `t` is row block `t / 16` of the matrix. -/
theorem blk0_eq_of (c : Dev nD) (t : Fin cfg1.N) (a : Fin 16) (ha : a.val = t.val / 16) :
    (iblk V c 0 t : S512x64.Idx → EReal) = Cert.PairSum.rowBlock (umat V c) a := by
  obtain ⟨e0, e1⟩ := index_0 t
  funext y
  unfold iblk
  rw [View.read_apply]
  show V c main_v5 (((cfg1.win 0).blk t).view.emb y)
    = V c main_v5 (ix2 (⟨a.val * 512 + (y 0).val, _⟩ : Fin 8192) (⟨(y 1).val, (y 1).isLt⟩ : Fin 64))
  refine congrArg (V c main_v5) (funext fun b => Fin.ext ?_)
  match b with
  | ⟨0, _⟩ =>
    show win1_0.index t (0 : Fin 2) * 512 + 1 * (y 0).val = a.val * 512 + (y 0).val
    rw [e0, ha]; omega
  | ⟨1, _⟩ =>
    show win1_0.index t (1 : Fin 2) * 64 + 1 * (y 1).val = (y 1).val
    rw [e1]; omega

/-- The second window's block at point `t` is row block `t % 16` of the matrix. -/
theorem blk1_eq_of (c : Dev nD) (t : Fin cfg1.N) (a : Fin 16) (ha : a.val = t.val % 16) :
    (iblk V c 1 t : S512x64.Idx → EReal) = Cert.PairSum.rowBlock (umat V c) a := by
  obtain ⟨e0, e1⟩ := index_1 t
  funext y
  unfold iblk
  rw [View.read_apply]
  show V c main_v5 (((cfg1.win 1).blk t).view.emb y)
    = V c main_v5 (ix2 (⟨a.val * 512 + (y 0).val, _⟩ : Fin 8192) (⟨(y 1).val, (y 1).isLt⟩ : Fin 64))
  refine congrArg (V c main_v5) (funext fun b => Fin.ext ?_)
  match b with
  | ⟨0, _⟩ =>
    show win1_1.index t (0 : Fin 2) * 512 + 1 * (y 0).val = a.val * 512 + (y 0).val
    rw [e0, ha]; omega
  | ⟨1, _⟩ =>
    show win1_1.index t (1 : Fin 2) * 64 + 1 * (y 1).val = (y 1).val
    rw [e1]; omega

theorem blk0_eq (c : Dev nD) (t : Fin cfg1.N) :
    (iblk V c 0 t : S512x64.Idx → EReal)
      = Cert.PairSum.rowBlock (umat V c) ⟨t.val / 16, by have := t.isLt; have := N_eq; omega⟩ :=
  blk0_eq_of V c t _ rfl
theorem blk1_eq (c : Dev nD) (t : Fin cfg1.N) :
    (iblk V c 1 t : S512x64.Idx → EReal) = Cert.PairSum.rowBlock (umat V c) ⟨t.val % 16, by omega⟩ :=
  blk1_eq_of V c t _ rfl

/-! ## The accumulator -/

/-- The tile of the two blocks loaded at position `n` is tile `n` of the matrix. -/
theorem tile_pt (c : Dev nD) (n : ℕ) :
    Cert.PairSum.tile (xb V c n) (yb V c n)
      = Cert.PairSum.tileAt (umat V c) ⟨n % 256, Nat.mod_lt _ (by decide)⟩ := by
  have hp : (pt n).val = n % 256 := by show n % cfg1.N = n % 256; rw [N_eq]
  unfold Cert.PairSum.tileAt xb yb
  rw [blk0_eq_of V c (pt n) ⟨n % 256 / 16, by omega⟩ (by rw [hp]),
    blk1_eq_of V c (pt n) ⟨n % 256 % 16, by omega⟩ (by rw [hp])]

/-- After position `n` the accumulator holds the sum of the tiles `0 … n`. -/
theorem acc_eq (c : Dev nD) (n : ℕ) (j : S1x1.Idx) :
    acc V c n j = ∑ k ∈ Finset.range (n + 1), Cert.PairSum.tileAt (umat V c) ⟨k % 256, Nat.mod_lt _ (by decide)⟩ := by
  induction n with
  | zero =>
    show k1_pay2 (xb V c 0) (yb V c 0) (k1_pay1 (F := Ideal)) j = _
    rw [TileValue.pay2_eq', TileValue.pay1_eq', zero_add, tile_pt, Finset.sum_range_one]
  | succ n ih =>
    show k1_pay2 (xb V c (n + 1)) (yb V c (n + 1)) (acc V c n) j = _
    rw [TileValue.pay2_eq', ih, tile_pt, Finset.sum_range_succ _ (n + 1)]

/-- After the last position it holds the sum of the weights of all ordered pairs of rows of the matrix. -/
theorem acc_last (c : Dev nD) (j : S1x1.Idx) : acc V c 255 j = Cert.PairSum.total (umat V c) := by
  rw [acc_eq, ← Cert.PairSum.tiles_sum]
  refine ((Fin.sum_univ_eq_sum_range (fun k => Cert.PairSum.tileAt (umat V c) ⟨k % 256, Nat.mod_lt _ (by decide)⟩) 256).symm).trans ?_
  refine Finset.sum_congr rfl fun t _ => congrArg (Cert.PairSum.tileAt (umat V c)) (Fin.ext ?_)
  exact Nat.mod_eq_of_lt t.isLt

/-! ## The output array after the call -/

/-- The output window's block index is `(0, 0)` at every point, and its block is never cut short. -/
theorem index_2 : ∀ t : Fin cfg1.N, win1_2.index t (0 : Fin 2) = 0 ∧ win1_2.index t (1 : Fin 2) = 0
    ∧ win1_2.xsize (grid1.coords t) 0 = 1 ∧ win1_2.xsize (grid1.coords t) 1 = 1 :=
  (by decide +kernel : ∀ t : Fin grid1.N, win1_2.index t (0 : Fin 2) = 0 ∧ win1_2.index t (1 : Fin 2) = 0
    ∧ win1_2.xsize (grid1.coords t) 0 = 1 ∧ win1_2.xsize (grid1.coords t) 1 = 1)

/-- What the one write-back (at the last point) writes is the total, at the block's one index. -/
theorem flushed_eq (c : Dev nD) (t : Fin cfg1.N) (hf : (cfg1.win 2).flush t = true) :
    (dat V c).flushed 2 t = ((cfg1.win 2).blk t).view.read (Elt Ideal) (fun _ => Cert.PairSum.total (umat V c)) := by
  have hN : cfg1.N = 256 := N_eq
  have ht : t.val = 255 := by have := (flush1_2 t).mp hf; have := t.isLt; omega
  funext y
  rw [View.read_apply]
  show (cfg1.win 2).cut (grid1.coords t) ((dat V c).after 2 t) y = Cert.PairSum.total (umat V c)
  rw [after_2, ht]
  exact acc_last V c _

/-- The last point's block is the whole one-entry array. -/
theorem mem_blk_last (t : Fin cfg1.N) (i : S1x1.Idx) : i ∈ ((cfg1.win 2).blk t).view.set := by
  obtain ⟨e0, e1, s0, s1⟩ := index_2 t
  have h0 : (i 0 : Nat) < 1 := (i 0).isLt
  have h1 : (i 1 : Nat) < 1 := (i 1).isLt
  show i ∈ ((View.whole main_v13).slice (win1_2.rect t)).set
  rw [View.set_slice_whole, Rect.mem_set_unit]
  intro a
  match a with
  | ⟨0, _⟩ =>
    show win1_2.index t 0 * win1_2.size 0 ≤ (i 0 : Nat)
      ∧ (i 0 : Nat) < win1_2.index t 0 * win1_2.size 0 + win1_2.xsize (grid1.coords t) 0
    rw [e0, s0]; omega
  | ⟨1, _⟩ =>
    show win1_2.index t 1 * win1_2.size 1 ≤ (i 1 : Nat)
      ∧ (i 1 : Nat) < win1_2.index t 1 * win1_2.size 1 + win1_2.xsize (grid1.coords t) 1
    rw [e1, s1]; omega

/-- THE OUTPUT after the call: the sum of the weights of all ordered pairs of rows of the matrix. -/
theorem out_eq (c : Dev nD) :
    ((dat V c).arrAt 2 cfg1.N : S1x1.Idx → EReal) = fun _ => Cert.PairSum.total (umat V c) :=
  (dat V c).arrAt_eq_of_cover 2 (fun _ => Cert.PairSum.total (umat V c)) (flushed_eq V c) fun i =>
    ⟨⟨255, by rw [N_eq]; decide⟩, (flush1_2 _).mpr rfl, mem_blk_last _ i⟩

end Cert.KernelIdeal.Region1

end
-- ==== Proof.HostBridge.lean ====
/-
  The host side of the kernel's program against the stages of the reference.

  Around its two kernel calls the kernel's program applies, operation for operation, the reference's own host
  operations: both inputs are normalised row by row (`x / sqrt(∑ x²)`), the alignment term is the mean over rows of the
  squared distance between the normalised inputs, and, once the two calls have left their sums `s₀`, `s₁` in 1 × 1 arrays,
  the result is `a + (1 · (log((s₀ - 8192)/67100672 + ε) + log((s₁ - 8192)/67100672 + ε))) / 2`. The reference normalises
  each input a second time for its own sums; the two normalisations of one input are the same term. So the buffers of
  the kernel's program hold the reference's stages: the normalised inputs where the two calls are entered, and, given
  that the calls leave the reference's two sums, the reference's result at the end.
-/
import proofs.«112264_j73735998537818_1_alg».proof.Proof.Gen.KernelIdeal.Regions
import proofs.«112264_j73735998537818_1_alg».proof.Proof.Gen.ReferenceIdeal.Read
import Idealize.ShloMosaic.Lib.StableHlo.Run

noncomputable section

namespace Cert.KernelIdeal.HostBridge

open Cert.KernelIdeal Cert.KernelIdeal.Gen Idealize.ShloMosaic Idealize.ShloMosaic.TcCoe Idealize.SL.Sem

/-! ## The shared tail, as one function of its three inputs -/

/-- `log((s - 8192) / 67100672 + ε)`: the logarithm of the mean off-diagonal pair weight, from the full sum `s`. -/
def logMean (s : (⟨S_, .f32⟩ : BufTy).Contents (Elt Ideal)) : (⟨S_, .f32⟩ : BufTy).Contents (Elt Ideal) :=
  Host.log (addf (Host.divf (subf s (constant (F := Ideal) S_ .f32 0x46000000#32)) (constant (F := Ideal) S_ .f32 0x4C7FF800#32))
    (constant (F := Ideal) S_ .f32 0x322BCC77#32))

/-- The result from the alignment term `a` and the two full sums: `a + (1 · (logMean s₀ + logMean s₁)) / 2`. -/
def combine (a s0 s1 : (⟨S_, .f32⟩ : BufTy).Contents (Elt Ideal)) : (⟨S_, .f32⟩ : BufTy).Contents (Elt Ideal) :=
  addf a (Host.divf (mulf (constant (F := Ideal) S_ .f32 0x3F800000#32) (addf (logMean s0) (logMean s1)))
    (constant (F := Ideal) S_ .f32 0x40000000#32))

/-- The reference's result is `combine` of its alignment term and its two full sums. -/
theorem ref_combine (x0 x1 : (⟨Cert.ReferenceIdeal.S8192x64, .f32⟩ : BufTy).Contents (Elt Ideal)) :
    Cert.ReferenceIdeal.Read.val_main_v52 (F := Ideal) x0 x1
      = combine (Cert.ReferenceIdeal.Read.val_main_v10 (F := Ideal) x0 x1) (Cert.ReferenceIdeal.Read.val_main_v25 (F := Ideal) x0)
          (Cert.ReferenceIdeal.Read.val_main_v44 (F := Ideal) x1) := by
  unfold Cert.ReferenceIdeal.Read.val_main_v52 Cert.ReferenceIdeal.Read.val_main_v51 Cert.ReferenceIdeal.Read.val_main_v50
    Cert.ReferenceIdeal.Read.val_main_v49 Cert.ReferenceIdeal.Read.val_main_v48 Cert.ReferenceIdeal.Read.val_main_v47
    Cert.ReferenceIdeal.Read.val_main_v46 Cert.ReferenceIdeal.Read.val_main_v45 Cert.ReferenceIdeal.Read.val_main_v29
    Cert.ReferenceIdeal.Read.val_main_v28 Cert.ReferenceIdeal.Read.val_main_v27 Cert.ReferenceIdeal.Read.val_main_v26
    Cert.ReferenceIdeal.Read.val_main_cst_7 Cert.ReferenceIdeal.Read.val_main_cst_8 Cert.ReferenceIdeal.Read.val_main_cst_9
    Cert.ReferenceIdeal.Read.val_main_cst_15 Cert.ReferenceIdeal.Read.val_main_cst_16 Cert.ReferenceIdeal.Read.val_main_cst_17
    Cert.ReferenceIdeal.Read.val_main_cst_18 Cert.ReferenceIdeal.Read.val_main_cst_19 combine logMean
  generalize Cert.ReferenceIdeal.Read.val_main_v10 (F := Ideal) x0 x1 = a
  generalize Cert.ReferenceIdeal.Read.val_main_v25 (F := Ideal) x0 = s0
  generalize Cert.ReferenceIdeal.Read.val_main_v44 (F := Ideal) x1 = s1
  rfl

/-! ## The host stretches, from any contents `W` of the buffers -/

/-- The first two stretches leave in `main_v2` the first input normalised: the reference's stage for it. -/
theorem norm0 (W : Valuation τ sig (Elt Ideal)) :
    (StableHlo.after hostOps0_1 (StableHlo.after hostOps0 W) (Proc.devRef .tc main_v2) : S8192x64.Idx → EReal)
      = Cert.ReferenceIdeal.Read.val_main_v13 (F := Ideal) (W (Proc.devRef .tc main_arg0)) := by
  after_results
  unfold Cert.ReferenceIdeal.Read.val_main_v13 Cert.ReferenceIdeal.Read.val_main_v12 Cert.ReferenceIdeal.Read.val_main_v11
    Cert.ReferenceIdeal.Read.val_main_call2_v2 Cert.ReferenceIdeal.Read.val_main_call2_v1 Cert.ReferenceIdeal.Read.val_main_call2_v0
    Cert.ReferenceIdeal.Read.val_main_call2_cst
  rfl

/-- The next two stretches leave in `main_v5` the second input normalised: the reference's stage for it. -/
theorem norm1 (W : Valuation τ sig (Elt Ideal)) :
    (StableHlo.after hostOps0_3 (StableHlo.after hostOps0_2 W) (Proc.devRef .tc main_v5) : S8192x64.Idx → EReal)
      = Cert.ReferenceIdeal.Read.val_main_v32 (F := Ideal) (W (Proc.devRef .tc main_arg1)) := by
  after_results
  unfold Cert.ReferenceIdeal.Read.val_main_v32 Cert.ReferenceIdeal.Read.val_main_v31 Cert.ReferenceIdeal.Read.val_main_v30
    Cert.ReferenceIdeal.Read.val_main_call3_v2 Cert.ReferenceIdeal.Read.val_main_call3_v1 Cert.ReferenceIdeal.Read.val_main_call3_v0
    Cert.ReferenceIdeal.Read.val_main_call3_cst
  rfl

/-- The four stretches before the first call leave in `main_v10` the reference's alignment term. -/
theorem align (W : Valuation τ sig (Elt Ideal)) :
    (StableHlo.after hostOps0_3 (StableHlo.after hostOps0_2 (StableHlo.after hostOps0_1 (StableHlo.after hostOps0 W)))
        (Proc.devRef .tc main_v10) : S_.Idx → EReal)
      = Cert.ReferenceIdeal.Read.val_main_v10 (F := Ideal) (W (Proc.devRef .tc main_arg0)) (W (Proc.devRef .tc main_arg1)) := by
  after_results
  unfold Cert.ReferenceIdeal.Read.val_main_v10 Cert.ReferenceIdeal.Read.val_main_v9 Cert.ReferenceIdeal.Read.val_main_v8
    Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_call1_v2 Cert.ReferenceIdeal.Read.val_main_call1_v1 Cert.ReferenceIdeal.Read.val_main_call1_v0
    Cert.ReferenceIdeal.Read.val_main_call1_cst
    Cert.ReferenceIdeal.Read.val_main_v2 Cert.ReferenceIdeal.Read.val_main_v1 Cert.ReferenceIdeal.Read.val_main_v0
    Cert.ReferenceIdeal.Read.val_main_call0_v2 Cert.ReferenceIdeal.Read.val_main_call0_v1 Cert.ReferenceIdeal.Read.val_main_call0_v0
    Cert.ReferenceIdeal.Read.val_main_call0_cst
    Cert.ReferenceIdeal.Read.val_main_cst Cert.ReferenceIdeal.Read.val_main_cst_0 Cert.ReferenceIdeal.Read.val_main_cst_1
  rfl

/-- The stretch between the calls views the first call's 1 × 1 result as a scalar. -/
theorem reshape1 (W : Valuation τ sig (Elt Ideal)) :
    (StableHlo.after hostOps1 W (Proc.devRef .tc main_v12) : S_.Idx → EReal)
      = fun i => shapeCast S_ (W (Proc.devRef .tc main_v11) : S1x1.Idx → EReal) shapeCasts_S1x1_S_ i := by
  after_results
  rfl

/-- The last stretch leaves in `main_v26` the `combine` of the alignment term, the first sum as a scalar and the second
    call's 1 × 1 result viewed as one. -/
theorem tail_kernel (W : Valuation τ sig (Elt Ideal)) :
    (StableHlo.after hostOps2 W (Proc.devRef .tc main_v26) : S_.Idx → EReal)
      = combine (W (Proc.devRef .tc main_v10)) (W (Proc.devRef .tc main_v12))
          (fun i => shapeCast S_ (W (Proc.devRef .tc main_v13) : S1x1.Idx → EReal) shapeCasts_S1x1_S_ i) := by
  after_results_simp
  rfl

/-! ## The buffers between the items -/

variable (m : (ℓ : Loc nD τ sig) → Buf (Elt Ideal) ℓ) (outs : Outs (F := Ideal)) (c : Dev nD)

/-- Where the first call is entered, `main_v2` holds the first input normalised. -/
theorem v2_eq :
    (V4 m c main_v2 : S8192x64.Idx → EReal)
      = Cert.ReferenceIdeal.Read.val_main_v13 (F := Ideal) (m ((c.tc : Thread nD τ).loc main_arg0)) := by
  rw [V4_of m c main_v2 (by decide), V3_of m c main_v2 (by decide)]
  exact norm0 (V0 m c)

/-- Where the first call is entered, `main_v5` holds the second input normalised. -/
theorem v5_eq :
    (V4 m c main_v5 : S8192x64.Idx → EReal)
      = Cert.ReferenceIdeal.Read.val_main_v32 (F := Ideal) (m ((c.tc : Thread nD τ).loc main_arg1)) := by
  refine (norm1 (V2 m c)).trans ?_
  rw [V2_of m c main_arg1 (by decide), V1_of m c main_arg1 (by decide)]

/-- Where the second call is entered, `main_v5` still holds the second input normalised. -/
theorem v5_eq6 :
    (V6 m outs c main_v5 : S8192x64.Idx → EReal)
      = Cert.ReferenceIdeal.Read.val_main_v32 (F := Ideal) (m ((c.tc : Thread nD τ).loc main_arg1)) := by
  rw [V6_of m outs c main_v5 (by decide), V5_of m outs c main_v5 (by decide)]
  exact v5_eq m c

/-- Before the first call `main_v10` holds the reference's alignment term. -/
theorem v10_eq :
    (V4 m c main_v10 : S_.Idx → EReal)
      = Cert.ReferenceIdeal.Read.val_main_v10 (F := Ideal) (m ((c.tc : Thread nD τ).loc main_arg0))
          (m ((c.tc : Thread nD τ).loc main_arg1)) :=
  align (V0 m c)

/-- If the two calls leave the reference's two full sums, the kernel's program ends with the reference's result. -/
theorem result_eq
    (h11 : ∀ i, outs 5 main_v11 c i
      = Cert.ReferenceIdeal.Read.val_main_v25 (F := Ideal) (m ((c.tc : Thread nD τ).loc main_arg0)) ValueIdx.ix0)
    (h13 : ∀ i, outs 7 main_v13 c i
      = Cert.ReferenceIdeal.Read.val_main_v44 (F := Ideal) (m ((c.tc : Thread nD τ).loc main_arg1)) ValueIdx.ix0) :
    (V8 m outs c main_v26 : S_.Idx → EReal)
      = Cert.ReferenceIdeal.Read.val_main_v52 (F := Ideal) (m ((c.tc : Thread nD τ).loc main_arg0))
          (m ((c.tc : Thread nD τ).loc main_arg1)) := by
  refine (tail_kernel (V7 m outs c)).trans ?_
  rw [ref_combine]
  have e10 : V7 m outs c (Proc.devRef .tc main_v10)
      = Cert.ReferenceIdeal.Read.val_main_v10 (F := Ideal) (m ((c.tc : Thread nD τ).loc main_arg0))
          (m ((c.tc : Thread nD τ).loc main_arg1)) := by
    rw [V7_of m outs c main_v10 (by decide), V6_of m outs c main_v10 (by decide), V5_of m outs c main_v10 (by decide)]
    exact v10_eq m c
  have e12 : V7 m outs c (Proc.devRef .tc main_v12)
      = Cert.ReferenceIdeal.Read.val_main_v25 (F := Ideal) (m ((c.tc : Thread nD τ).loc main_arg0)) := by
    rw [V7_of m outs c main_v12 (by decide)]
    refine (reshape1 (V5 m outs c)).trans ?_
    funext i
    unfold shapeCast
    have e : V5 m outs c (Proc.devRef .tc main_v11) = outs 5 main_v11 c := Function.update_self ..
    rw [e]
    exact (h11 _).trans (congrArg _ (ValueIdx.eq_ix0 i).symm)
  have e13 : (fun i => shapeCast S_ (V7 m outs c (Proc.devRef .tc main_v13) : S1x1.Idx → EReal) shapeCasts_S1x1_S_ i)
      = Cert.ReferenceIdeal.Read.val_main_v44 (F := Ideal) (m ((c.tc : Thread nD τ).loc main_arg1)) := by
    funext i
    unfold shapeCast
    have e : V7 m outs c (Proc.devRef .tc main_v13) = outs 7 main_v13 c := Function.update_self ..
    rw [e]
    exact (h13 _).trans (congrArg _ (ValueIdx.eq_ix0 i).symm)
  rw [e10, e12, e13]

end Cert.KernelIdeal.HostBridge

end
-- ==== Proof.RefTotal.lean ====
/-
  The reference's two large sums are the uniformity sum `Cert.PairSum.total` of its two normalised inputs.

  For a normalised input `u` (8192 rows of 64 entries) the reference forms the full 8192 × 8192 matrix of inner
  products of rows (a contraction of `u` with its transpose), applies the weight `w(g) = exp(-2 · max(2 - 2·g, 0))`
  to every entry, and adds all the entries to the initial value zero. Read entry by entry this is
  `0 + ∑ (i, j), w(∑ k, u i k · u j k)`; the sum over the index pairs is the double sum over the two coordinates, and
  `0 + s = s`. Nothing about `u` is used: the normalisation stays folded throughout.
-/
import proofs.«112264_j73735998537818_1_alg».proof.Proof.Gen.ReferenceIdeal.Read
import proofs.«112264_j73735998537818_1_alg».proof.Proof.PairSum

noncomputable section

namespace Cert.ReferenceIdeal.RefTotal

open Cert.ReferenceIdeal Cert.ReferenceIdeal.Read Idealize.ShloMosaic Idealize.ShloMosaic.ValueIdx

/-- The weight as the reference spells it, `exp` applied to `-2 · max(2 - 2·g, 0)` with the exponential taken by the
    host's one-operand operation, is `Cert.PairSum.pairW g`: on the extended reals the two exponentials are one
    function. -/
theorem hostWeight_eq (g : Ideal .f32) :
    FloatOps.hostUnary (F := Ideal) .exp
      (FloatOps.mulf (F := Ideal) (FloatOps.ofBits (F := Ideal) .f32 0xC0000000#32)
        (FloatOps.maximumf (F := Ideal)
          (FloatOps.subf (F := Ideal) (FloatOps.ofBits (F := Ideal) .f32 0x40000000#32)
            (FloatOps.mulf (F := Ideal) (FloatOps.ofBits (F := Ideal) .f32 0x40000000#32) g))
          (FloatOps.ofBits (F := Ideal) .f32 0x00000000#32)))
      = Cert.PairSum.pairW g := rfl

/-- Entry `(a, b)` of the product of `u` with its transpose `ut` (`ut (k, j) = u (j, k)`) is the inner product of rows
    `a` and `b` of `u`. -/
theorem gram_entry (u : S8192x64.Idx → EReal) (a b : Fin 8192) (k : Fin 64) :
    u (lidx_main_v15 (ix2 a b) k) * u (idx_main_v14 (ridx_main_v15 (ix2 a b) k)) = u (ix2 a k) * u (ix2 b k) := by
  have e1 : lidx_main_v15 (ix2 a b) k = ix2 a k :=
    funext fun d => Fin.ext (by match d with | ⟨0, _⟩ => rfl | ⟨1, _⟩ => rfl)
  have e2 : idx_main_v14 (ridx_main_v15 (ix2 a b) k) = ix2 b k :=
    funext fun d => Fin.ext (by match d with | ⟨0, _⟩ => rfl | ⟨1, _⟩ => rfl)
  rw [e1, e2]

/-- The first large sum of the reference is the uniformity sum of the normalised first input. -/
theorem total_first (x0 : (⟨Cert.ReferenceIdeal.S8192x64, .f32⟩ : BufTy).Contents (Elt Ideal)) (i : Cert.ReferenceIdeal.S_.Idx) :
    Cert.ReferenceIdeal.Read.val_main_v25 (F := Ideal) x0 i
      = Cert.PairSum.total (Cert.ReferenceIdeal.Read.val_main_v13 (F := Ideal) x0) := by
  -- the sum of all entries, from the initial value zero, as a double sum over the two coordinates
  rw [val_main_v25_apply, val_main_cst_6_apply, Ideal.ofBits_def, Ideal.ofBits_zero_f32, zero_add, sum_idx2]
  unfold Cert.PairSum.total
  refine Finset.sum_congr rfl fun a _ => Finset.sum_congr rfl fun b _ => ?_
  -- one entry: the weight of the (a, b) entry of the matrix of inner products
  rw [val_main_v24_apply, val_main_v23_apply, val_main_v22_apply, val_main_cst_5_apply, val_main_v21_apply,
    val_main_v20_apply, val_main_cst_4_apply, val_main_v19_apply, val_main_v18_apply, val_main_cst_3_apply,
    val_main_v17_apply, val_main_v16_apply, val_main_cst_2_apply, val_main_v15_apply]
  have hg : (∑ k : Fin 64, val_main_v13 (F := Ideal) x0 (lidx_main_v15 (ix2 a b) k)
        * val_main_v14 (F := Ideal) x0 (ridx_main_v15 (ix2 a b) k))
      = ∑ k : Fin 64, val_main_v13 (F := Ideal) x0 (ix2 a k) * val_main_v13 (F := Ideal) x0 (ix2 b k) := by
    refine Finset.sum_congr rfl fun k _ => ?_
    rw [val_main_v14_apply]
    generalize val_main_v13 (F := Ideal) x0 = u
    exact gram_entry u a b k
  rw [hg]
  exact hostWeight_eq _

/-- The second large sum of the reference is the uniformity sum of the normalised second input. -/
theorem total_second (x1 : (⟨Cert.ReferenceIdeal.S8192x64, .f32⟩ : BufTy).Contents (Elt Ideal)) (i : Cert.ReferenceIdeal.S_.Idx) :
    Cert.ReferenceIdeal.Read.val_main_v44 (F := Ideal) x1 i
      = Cert.PairSum.total (Cert.ReferenceIdeal.Read.val_main_v32 (F := Ideal) x1) := by
  rw [val_main_v44_apply, val_main_cst_14_apply, Ideal.ofBits_def, Ideal.ofBits_zero_f32, zero_add, sum_idx2]
  unfold Cert.PairSum.total
  refine Finset.sum_congr rfl fun a _ => Finset.sum_congr rfl fun b _ => ?_
  rw [val_main_v43_apply, val_main_v42_apply, val_main_v41_apply, val_main_cst_13_apply, val_main_v40_apply,
    val_main_v39_apply, val_main_cst_12_apply, val_main_v38_apply, val_main_v37_apply, val_main_cst_11_apply,
    val_main_v36_apply, val_main_v35_apply, val_main_cst_10_apply, val_main_v34_apply]
  have hg : (∑ k : Fin 64, val_main_v32 (F := Ideal) x1 (lidx_main_v34 (ix2 a b) k)
        * val_main_v33 (F := Ideal) x1 (ridx_main_v34 (ix2 a b) k))
      = ∑ k : Fin 64, val_main_v32 (F := Ideal) x1 (ix2 a k) * val_main_v32 (F := Ideal) x1 (ix2 b k) := by
    refine Finset.sum_congr rfl fun k _ => ?_
    rw [val_main_v33_apply]
    generalize val_main_v32 (F := Ideal) x1 = u
    exact gram_entry u a b k
  rw [hg]
  exact hostWeight_eq _

end Cert.ReferenceIdeal.RefTotal

end
-- ==== Proof.IBridge.lean ====
/-
  The two idealized programs end with the same number.

  Both normalise the rows of the two inputs, take the same alignment term, and feed two sums `S(u)`, `S(v)` — the weights
  `exp(-2·max(2 - 2⟨u_i, u_j⟩, 0))` summed over all ordered pairs of rows — through the same closing arithmetic. The
  reference takes each sum in one sweep (`total`); the kernel adds 256 tile sums in its one-word accumulator, which the last
  grid point writes to the region's result array. The tile sums add up to `total` because addition of extended reals is
  commutative and associative; no finiteness of the inputs is used.
-/
import proofs.«112264_j73735998537818_1_alg».proof.Proof.IRun
import proofs.«112264_j73735998537818_1_alg».proof.Proof.IValue0
import proofs.«112264_j73735998537818_1_alg».proof.Proof.IValue1
import proofs.«112264_j73735998537818_1_alg».proof.Proof.HostBridge
import proofs.«112264_j73735998537818_1_alg».proof.Proof.RefTotal

noncomputable section

namespace Cert.Proof.Bridge

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The first region's result is the reference's first sum: both are `total` of the normalised first input. -/
theorem first_sum (i) :
    Run.outs m 5 main_v11 c i = Cert.ReferenceIdeal.Read.val_main_v25 (F := Ideal) (m ((c.tc : Thread nD τ).loc main_arg0)) ValueIdx.ix0 := by
  rw [Run.outs_5, Cert.ReferenceIdeal.RefTotal.total_first, ← Cert.KernelIdeal.HostBridge.v2_eq m c]
  exact congrFun (Region0.out_eq (Run.Vin0 m) c) i

/-- The second region's result is the reference's second sum, of the normalised second input (which the reshape between
    the regions leaves alone). -/
theorem second_sum (i) :
    Run.outs m 7 main_v13 c i = Cert.ReferenceIdeal.Read.val_main_v44 (F := Ideal) (m ((c.tc : Thread nD τ).loc main_arg1)) ValueIdx.ix0 := by
  rw [Run.outs_7, Cert.ReferenceIdeal.RefTotal.total_second, ← Cert.KernelIdeal.HostBridge.v5_eq6 m (Run.outs m) c, Run.V6_eq]
  exact congrFun (Region1.out_eq (Run.Vin1 m) c) i

/-- The kernel program's result buffer holds the reference's result term of the same arguments. -/
theorem result :
    (V8 m (Run.outs m) c main_v26 : S_.Idx → EReal)
      = Cert.ReferenceIdeal.Read.val_main_v52 (F := Ideal) (m ((c.tc : Thread nD τ).loc main_arg0)) (m ((c.tc : Thread nD τ).loc main_arg1)) :=
  Cert.KernelIdeal.HostBridge.result_eq m (Run.outs m) c (first_sum m c) (second_sum m c)

end Cert.Proof.Bridge

end
-- ==== Proof.lean ====
/-
  The certificate: the kernel program (as printed, and read at the extended reals) and the reference run to the end,
  fault nowhere and leave their inputs unchanged; and, read at the extended reals, the kernel program and the reference
  end with the same number.

  The number is `align(u, v) + (log(m(S(u))) + log(m(S(v)))) / 2`, with `u`, `v` the inputs with every row divided by its
  norm, `align` the mean squared distance of corresponding rows, `S(x) = ∑ i j, exp(-2·max(2 - 2⟨x_i, x_j⟩, 0))` over all
  8192² ordered pairs of rows and `m(s) = (s - 8192)/(8192·8191) + ε`. The two programs differ only in how `S` is summed:
  the reference in one sweep, the kernel tile by tile (16 × 16 tiles of 512 × 512 pairs) into a one-word accumulator carried
  across the grid. Every other operation is the same operation on the same operands.
-/
import proofs.«112264_j73735998537818_1_alg».proof.Defs
import proofs.«112264_j73735998537818_1_alg».proof.Proof.Gen.Kernel
import proofs.«112264_j73735998537818_1_alg».proof.Proof.Gen.KernelIdeal
import proofs.«112264_j73735998537818_1_alg».proof.Proof.Gen.ReferenceIdeal
import proofs.«112264_j73735998537818_1_alg».proof.Proof.Gen.Pre_finite_inputs
import proofs.«112264_j73735998537818_1_alg».proof.Proof.Gen.ReferenceIdeal.Run
import proofs.«112264_j73735998537818_1_alg».proof.Proof.Gen.ReferenceIdeal.Read
import proofs.«112264_j73735998537818_1_alg».proof.Proof.KRun
import proofs.«112264_j73735998537818_1_alg».proof.Proof.IBridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Run.frame (F := Bits) m ρ

/-- So does its reading at the extended reals. -/
theorem frame_kernelIdeal : Cert.frame_KernelIdeal := fun m ρ _ => Cert.KernelIdeal.Run.frame (F := Ideal) m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two arguments both programs end with the reference's result term of those arguments. -/
theorem algebraic : Cert.algebraic_KernelIdeal_ReferenceIdeal := by
  intro m ρ m' ρ' _ hagree
  refine ⟨fun c => Cert.KernelIdeal.Gen.V8 m (Cert.KernelIdeal.Run.outs m) c Cert.KernelIdeal.main_v26,
    Cert.KernelIdeal.Run.run_vals (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2]
  exact (Cert.Proof.Bridge.result m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
